-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)) (v3 : (c : Dev Cert.KernelIdeal.nD) → Buf (Elt Ideal) ((c.tc : Thread Cert.KernelIdeal.nD Cert.KernelIdeal.τ).loc Cert.KernelIdeal.main_v46_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_v46_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg11 : FVec F S128 .f32) (main_arg12 : FVec F S128x128 .f32) (main_arg13 : FVec F S128x128 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg13
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg8 : FVec F S128x128 .f32) (main_arg9 : FVec F S128 .f32) (main_arg10 : FVec F S128x128 .f32) (main_arg11 : FVec F S128 .f32) (main_arg12 : FVec F S128x128 .f32) (main_arg13 : FVec F S128x128 .f32) (main_v13 : IVec S_ 1) (main_v16 : IVec S50000x128 1) : IVec S_ 1 :=
  let main_c_5 : IVec S_ 1 := constantI S_ 1 1#1
  let main_v17 : IVec S_ 1 := (fun x v => Host.reduce IntOp.andi x v reducesTo_S50000x128_S_d0_1 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg11 main_arg12 main_arg13 main_v33

def fn {F : FTy → Type} [FloatOps F] (main_arg0 : FVec F S50000x128 .f32) (main_arg1 : FVec F S50000x128 .f32) (main_arg2 : FVec F S50000x128 .f32) (main_arg3 : FVec F S50000x128 .f32) (main_arg4 : IVec S600000 32) (main_arg5 : IVec S600000 32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S50000x128 .f32 := Host.absf main_arg3
  let main_cst_4 : FVec F S_ .f32 := constant S_ .f32 0x7F800000#32
  let main_v15 : FVec F S50000x128 .f32 := broadcastInDim S50000x128 ![] bcast_S_S50000x128 main_cst_4
  let main_v16 : IVec S50000x128 1 := cmpf .olt main_v14 main_v15
  fn_part1 (F := F) main_arg8 main_arg9 main_arg10 main_arg11 main_arg12 main_arg13 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩
abbrev S2000x1 : Shape := ⟨2, ![2000, 1]⟩

abbrev nBuf : Space → Nat
  | .hbm => 74
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x128, .f32⟩
  | .hbm, ⟨3, _⟩ => ⟨S50000x128, .f32⟩
  | .hbm, ⟨4, _⟩ => ⟨S600000, .i32⟩
  | .hbm, ⟨5, _⟩ => ⟨S600000, .i32⟩
  | .hbm, ⟨6, _⟩ => ⟨S600000, .i32⟩
  | .hbm, ⟨7, _⟩ => ⟨S600000, .i32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S_, .f32⟩
  | .hbm, ⟨28, _⟩ => ⟨S600000, .f32⟩
  | .hbm, ⟨29, _⟩ => ⟨S_, .f32⟩
  | .hbm, ⟨30, _⟩ => ⟨S50000, .f32⟩
  | .hbm, ⟨31, _⟩ => ⟨S600000x1, .i32⟩
  | .hbm, ⟨32, _⟩ => ⟨S50000, .f32⟩
  | .hbm, ⟨33, _⟩ => ⟨S50000x1, .f32⟩
  | .hbm, ⟨34, _⟩ => ⟨S_, .i32⟩
  | .hbm, ⟨35, _⟩ => ⟨S600000, .i32⟩
  | .hbm, ⟨36, _⟩ => ⟨S600000, .i1⟩
  | .hbm, ⟨37, _⟩ => ⟨S_, .i32⟩
  | .hbm, ⟨38, _⟩ => ⟨S600000, .i32⟩
  | .hbm, ⟨39, _⟩ => ⟨S600000, .i32⟩
  | .hbm, ⟨40, _⟩ => ⟨S600000, .i32⟩
  | .hbm, ⟨41, _⟩ => ⟨S600000x1, .i32⟩
  | .hbm, ⟨42, _⟩ => ⟨S600000x128, .f32⟩
  | .hbm, ⟨43, _⟩ => ⟨S_, .f32⟩
  | .hbm, ⟨44, _⟩ => ⟨S50000x128, .f32⟩
  | .hbm, ⟨45, _⟩ => ⟨S600000x1, .i32⟩
  | .hbm, ⟨46, _⟩ => ⟨S50000x128, .f32⟩
  | .hbm, ⟨47, _⟩ => ⟨S_, .f32⟩
  | .hbm, ⟨48, _⟩ => ⟨S600000, .f32⟩
  | .hbm, ⟨49, _⟩ => ⟨S_, .f32⟩
  | .hbm, ⟨50, _⟩ => ⟨S50000, .f32⟩
  | .hbm, ⟨51, _⟩ => ⟨S600000x1, .i32⟩
  | .hbm, ⟨52, _⟩ => ⟨S50000, .f32⟩
  | .hbm, ⟨53, _⟩ => ⟨S50000x1, .f32⟩
  | .hbm, ⟨54, _⟩ => ⟨S128x128, .f32⟩
  | .hbm, ⟨55, _⟩ => ⟨S128x128, .bf16⟩
  | .hbm, ⟨56, _⟩ => ⟨S128x128, .f32⟩
  | .hbm, ⟨57, _⟩ => ⟨S128x128, .bf16⟩
  | .hbm, ⟨58, _⟩ => ⟨S128x128, .f32⟩
  | .hbm, ⟨59, _⟩ => ⟨S128x128, .bf16⟩
  | .hbm, ⟨60, _⟩ => ⟨S128x128, .f32⟩
  | .hbm, ⟨61, _⟩ => ⟨S128x128, .bf16⟩
  | .hbm, ⟨62, _⟩ => ⟨S128x128, .f32⟩
  | .hbm, ⟨63, _⟩ => ⟨S128x128, .f32⟩
  | .hbm, ⟨64, _⟩ => ⟨S128x128, .bf16⟩
  | .hbm, ⟨65, _⟩ => ⟨S128x128, .f32⟩
  | .hbm, ⟨66, _⟩ => ⟨S128x128, .f32⟩
  | .hbm, ⟨67, _⟩ => ⟨S128x128, .bf16⟩
  | .hbm, ⟨68, _⟩ => ⟨S1x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | .local _ .vmem, ⟨14, _⟩ => ⟨S2000x1, .f32⟩
  | .local _ .vmem, ⟨15, _⟩ => ⟨S2000x1, .f32⟩
  | .local _ .vmem, ⟨16, _⟩ => ⟨S128x128, .bf16⟩
  | .local _ .vmem, ⟨17, _⟩ => ⟨S128x128, .bf16⟩
  | .local _ .vmem, ⟨18, _⟩ => ⟨S128x128, .bf16⟩
  | .local _ .vmem, ⟨19, _⟩ => ⟨S128x128, .bf16⟩
  | .local _ .vmem, ⟨20, _⟩ => ⟨S128x128, .bf16⟩
  | .local _ .vmem, ⟨21, _⟩ => ⟨S128x128, .bf16⟩
  | .local _ .vmem, ⟨22, _⟩ => ⟨S1x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_6 : Ref sig .tc := ⟨.hbm, 47, rfl⟩
abbrev main_v25 : Ref sig .tc := ⟨.hbm, 48, rfl⟩
abbrev main_cst_7 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46_0 : Ref sig .tc := ⟨.hbm, 70, rfl⟩
abbrev main_v46_1 : Ref sig .tc := ⟨.hbm, 71, rfl⟩
abbrev main_v46_2 : Ref sig .tc := ⟨.hbm, 72, rfl⟩
abbrev main_v46_3 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2000x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2000x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2000x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2000x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  transposes_S128x128_S128x128_1_0 : S128x128.Transposes [1, 0] S128x128
  bitsLt_bf16_f32 : FTy.bits .bf16 < FTy.bits .f32
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  broadcasts_S1x128_S2000x128 : S1x128.Broadcasts S2000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x1.size a ≤ S50000x1.size a
  hwx0_6 : ∀ i : grid0.Coords, EltTy.bits .f32 = 32 ∨ (Rect.block (s := S50000x1) S2000x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x1.size a ≤ S50000x1.size a
  hwx0_7 : ∀ i : grid0.Coords, EltTy.bits .f32 = 32 ∨ (Rect.block (s := S50000x1) S2000x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .bf16 = 32 ∨ (Rect.block (s := S128x128) S128x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .bf16 = 32 ∨ (Rect.block (s := S128x128) S128x128.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .bf16 = 32 ∨ (Rect.block (s := S128x128) S128x128.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2000x128.size a ≤ S50000x128.size a
  hwx0_16 : ∀ i : grid0.Coords, EltTy.bits .f32 = 32 ∨ (Rect.block (s := S50000x128) S2000x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2000x128.size a ≤ S50000x128.size a
  hwx0_17 : ∀ i : grid0.Coords, EltTy.bits .f32 = 32 ∨ (Rect.block (s := S50000x128) S2000x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2000x128.size a ≤ S50000x128.size a
  hwx0_18 : ∀ i : grid0.Coords, EltTy.bits .f32 = 32 ∨ (Rect.block (s := S50000x128) S2000x128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S2000x128.size a ≤ S50000x128.size a
  hwx0_19 : ∀ i : grid0.Coords, EltTy.bits .f32 = 32 ∨ (Rect.block (s := S50000x128) S2000x128.size (cc0_transform_19 i) (hinb0_19 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14) S2000x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v29) S2000x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v31) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v33) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v37) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v35) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v40) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v43) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v44) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v45) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v46_0) S2000x128.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v46_1) S2000x128.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v46_2) S2000x128.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v46_3) S2000x128.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x128, .f32⟩
  | .hbm, ⟨3, _⟩ => ⟨S50000x128, .f32⟩
  | .hbm, ⟨4, _⟩ => ⟨S600000, .i32⟩
  | .hbm, ⟨5, _⟩ => ⟨S600000, .i32⟩
  | .hbm, ⟨6, _⟩ => ⟨S600000, .i32⟩
  | .hbm, ⟨7, _⟩ => ⟨S600000, .i32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S50000x128, .f32⟩
  | .hbm, ⟨16, _⟩ => ⟨S1x128, .f32⟩
  | .hbm, ⟨17, _⟩ => ⟨S50000x128, .f32⟩
  | .hbm, ⟨18, _⟩ => ⟨S50000x128, .f32⟩
  | .hbm, ⟨19, _⟩ => ⟨S128x128, .f32⟩
  | .hbm, ⟨20, _⟩ => ⟨S50000x128, .f32⟩
  | .hbm, ⟨21, _⟩ => ⟨S1x128, .f32⟩
  | .hbm, ⟨22, _⟩ => ⟨S50000x128, .f32⟩
  | .hbm, ⟨23, _⟩ => ⟨S50000x128, .f32⟩
  | .hbm, ⟨24, _⟩ => ⟨S128x128, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S128x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S_, .i32⟩
  | .hbm, ⟨35, _⟩ => ⟨S600000, .i32⟩
  | .hbm, ⟨36, _⟩ => ⟨S600000, .i1⟩
  | .hbm, ⟨37, _⟩ => ⟨S_, .i32⟩
  | .hbm, ⟨38, _⟩ => ⟨S600000, .i32⟩
  | .hbm, ⟨39, _⟩ => ⟨S600000, .i32⟩
  | .hbm, ⟨40, _⟩ => ⟨S600000, .i32⟩
  | .hbm, ⟨41, _⟩ => ⟨S600000x1, .i32⟩
  | .hbm, ⟨42, _⟩ => ⟨S600000x128, .f32⟩
  | .hbm, ⟨43, _⟩ => ⟨S_, .f32⟩
  | .hbm, ⟨44, _⟩ => ⟨S50000x128, .f32⟩
  | .hbm, ⟨45, _⟩ => ⟨S600000x1, .i32⟩
  | .hbm, ⟨46, _⟩ => ⟨S50000x128, .f32⟩
  | .hbm, ⟨47, _⟩ => ⟨S_, .f32⟩
  | .hbm, ⟨48, _⟩ => ⟨S600000, .f32⟩
  | .hbm, ⟨49, _⟩ => ⟨S_, .f32⟩
  | .hbm, ⟨50, _⟩ => ⟨S50000, .f32⟩
  | .hbm, ⟨51, _⟩ => ⟨S600000x1, .i32⟩
  | .hbm, ⟨52, _⟩ => ⟨S50000, .f32⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S128x128, .f32⟩
  | .hbm, ⟨60, _⟩ => ⟨S50000x128, .f32⟩
  | .hbm, ⟨61, _⟩ => ⟨S50000x128, .f32⟩
  | .hbm, ⟨62, _⟩ => ⟨S128x128, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S600000, .i32⟩
  | .hbm, ⟨67, _⟩ => ⟨S600000, .i1⟩
  | .hbm, ⟨68, _⟩ => ⟨S_, .i32⟩
  | .hbm, ⟨69, _⟩ => ⟨S600000, .i32⟩
  | .hbm, ⟨70, _⟩ => ⟨S600000, .i32⟩
  | .hbm, ⟨71, _⟩ => ⟨S600000, .i32⟩
  | .hbm, ⟨72, _⟩ => ⟨S600000x1, .i32⟩
  | .hbm, ⟨73, _⟩ => ⟨S600000x128, .f32⟩
  | .hbm, ⟨74, _⟩ => ⟨S_, .f32⟩
  | .hbm, ⟨75, _⟩ => ⟨S50000x128, .f32⟩
  | .hbm, ⟨76, _⟩ => ⟨S600000x1, .i32⟩
  | .hbm, ⟨77, _⟩ => ⟨S50000x128, .f32⟩
  | .hbm, ⟨78, _⟩ => ⟨S_, .f32⟩
  | .hbm, ⟨79, _⟩ => ⟨S600000, .f32⟩
  | .hbm, ⟨80, _⟩ => ⟨S_, .f32⟩
  | .hbm, ⟨81, _⟩ => ⟨S50000, .f32⟩
  | .hbm, ⟨82, _⟩ => ⟨S600000x1, .i32⟩
  | .hbm, ⟨83, _⟩ => ⟨S50000, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S50000x1, .f32⟩
  | .hbm, ⟨88, _⟩ => ⟨S50000x128, .f32⟩
  | .hbm, ⟨89, _⟩ => ⟨S50000x128, .f32⟩
  | .hbm, ⟨90, _⟩ => ⟨S128x128, .f32⟩
  | .hbm, ⟨91, _⟩ => ⟨S50000x128, .f32⟩
  | .hbm, ⟨92, _⟩ => ⟨S50000x128, .f32⟩
  | .hbm, ⟨93, _⟩ => ⟨S128x128, .f32⟩
  | .hbm, ⟨94, _⟩ => ⟨S50000x128, .f32⟩
  | .hbm, ⟨95, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_1 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_4 : Ref sig .tc := ⟨.hbm, 65, rfl⟩
abbrev main_v45 : Ref sig .tc := ⟨.hbm, 66, rfl⟩
abbrev main_v46 : Ref sig .tc := ⟨.hbm, 67, rfl⟩
abbrev main_c_5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_cst_8 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_9 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf

class Facts : Prop extends Facts₀ where

variable [Facts]
-- ==== Proof.LibSageMerge.lean ====
/-
  Two branches of a neighbourhood-aggregation layer that share their destination features, merged into one.

  For one destination node and one output column such a layer adds two branches,
      (p1 + ba + sum_k x k * A k) + (p2 + bb + sum_k x k * B k),
  where p1, p2 are the aggregated-message terms of the two branches, ba, bb their biases, x the destination node's own
  feature row and A, B the two branches' root-weight columns. The merged form multiplies x once into the SUM of the two
  columns and adds the sum of the two biases:
      ((p1 + p2) + sum_k x k * (A k + B k)) + (ba + bb).
  On the extended reals x * (a + b) = x * a + x * b is not free: it fails for an infinite x against real a, b of opposite
  signs (top * (1 + -1) = 0 but top * 1 + top * -1 = bot) and for a negative x against a = top, b = bot. It holds when
  x, a and b are real numbers. The message terms and the biases may be ANY extended reals: extended-real addition is
  commutative and associative without restriction.
-/
import Idealize.ShloMosaic.PureOps.Ideal

namespace Cert.LibSageMerge

/-- x * (a + b) = x * a + x * b for three real numbers read as extended reals. -/
theorem mul_add_of_real {x a b : EReal} (hx : ∃ r : ℝ, x = (r : EReal)) (ha : ∃ r : ℝ, a = (r : EReal))
    (hb : ∃ r : ℝ, b = (r : EReal)) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- A row of reals against the sum of two real columns is the sum of the row against each column. -/
theorem sum_mul_add_of_real {κ : Type*} (s : Finset κ) (x A B : κ → EReal)
    (hx : ∀ k ∈ s, ∃ r : ℝ, x k = (r : EReal)) (hA : ∀ k ∈ s, ∃ r : ℝ, A k = (r : EReal))
    (hB : ∀ k ∈ s, ∃ r : ℝ, B k = (r : EReal)) :
    ∑ k ∈ s, x k * (A k + B k) = ∑ k ∈ s, x k * A k + ∑ k ∈ s, x k * B k := by
  rw [← Finset.sum_add_distrib]
  exact Finset.sum_congr rfl fun k hk => mul_add_of_real (hx k hk) (hA k hk) (hB k hk)

/-- THE MERGED ENTRY IS THE SUM OF THE TWO BRANCHES: the message terms p1, p2 and the biases ba, bb are arbitrary
    extended reals; the destination row and the two root-weight columns are real. -/
theorem merged_eq_branches {κ : Type*} (s : Finset κ) (p1 p2 ba bb : EReal) (x A B : κ → EReal)
    (hx : ∀ k ∈ s, ∃ r : ℝ, x k = (r : EReal)) (hA : ∀ k ∈ s, ∃ r : ℝ, A k = (r : EReal))
    (hB : ∀ k ∈ s, ∃ r : ℝ, B k = (r : EReal)) :
    ((p1 + p2) + ∑ k ∈ s, x k * (A k + B k)) + (ba + bb)
      = ((p1 + ba) + ∑ k ∈ s, x k * A k) + ((p2 + bb) + ∑ k ∈ s, x k * B k) := by
  rw [sum_mul_add_of_real s x A B hx hA hB]
  abel

/-- The same under a rectifier: max(., 0) of equal entries. -/
theorem relu_merged_eq_branches {κ : Type*} (s : Finset κ) (p1 p2 ba bb z : EReal) (x A B : κ → EReal)
    (hx : ∀ k ∈ s, ∃ r : ℝ, x k = (r : EReal)) (hA : ∀ k ∈ s, ∃ r : ℝ, A k = (r : EReal))
    (hB : ∀ k ∈ s, ∃ r : ℝ, B k = (r : EReal)) :
    max (((p1 + p2) + ∑ k ∈ s, x k * (A k + B k)) + (ba + bb)) z
      = max (((p1 + ba) + ∑ k ∈ s, x k * A k) + ((p2 + bb) + ∑ k ∈ s, x k * B k)) z := by
  rw [merged_eq_branches s p1 p2 ba bb x A B hx hA hB]

/-- A product over a concatenated contraction axis splits into the two halves' products: no finiteness is needed. -/
theorem sum_concat_split {m n : ℕ} (u : Fin m → EReal) (v : Fin n → EReal) (w : Fin (m + n) → EReal) :
    ∑ k : Fin (m + n), Fin.append u v k * w k
      = ∑ k : Fin m, u k * w (Fin.castAdd n k) + ∑ k : Fin n, v k * w (Fin.natAdd m k) := by
  rw [Fin.sum_univ_add]
  simp only [Fin.append_left, Fin.append_right]

end Cert.LibSageMerge
-- ==== Proof.Spec.lean ====
/-
  Two node types a and b exchange messages along two relations. For a destination node r and an output channel q the
  layer's entry is a sum of three terms:

      a self term        sum_t x r t * wroot q t          (the node's own features against the ROOT weights' row q),
      a message term     sum_t agg r t * wrel q t         (the MEAN of the source features over the edges that arrive at r,
                                                           against the relation weights' row q),
      a bias             b q.

  The mean of node r is its segment sum divided by the number of arriving edges, clamped below at one so that a node that
  receives nothing divides by one.

  A "twin" branch pushes a second feature matrix xp through the same root and relation weights with NO aggregation:
      (sum_t xp r t * wroot q t + b q) + sum_t xp r t * wrel q t.

  Each entry is written here in two arrangements. One adds the bias last and, for the twin branch, multiplies xp once into
  the SUM of the two weight rows; the other adds the bias to the self term first and keeps two products. The message-passing
  entry's two arrangements differ only in the order of a sum of three extended reals, and extended-real addition is
  commutative and associative without restriction. The twin entry's arrangements differ by x * (a + b) = x * a + x * b,
  which fails on the extended reals at infinities and holds when x, a and b are real numbers.
-/
import Idealize.ShloMosaic.Lib.ValueIdx
import Idealize.ShloMosaic.PureOps.Ideal
import proofs.«182101_j34548716929228_2_alg».proof.Proof.LibSageMerge

noncomputable section

open scoped BigOperators

namespace Cert.TwinConv

open Idealize.ShloMosaic Idealize.ShloMosaic.ValueIdx

variable {n k d : ℕ}

/-- Row `r` of `x` against row `q` of `w`: entry `(r, q)` of the product of `x` with the transpose of `w`. -/
def rowDot (x : (⟨2, ![n, k]⟩ : Shape).Idx → EReal) (w : (⟨2, ![d, k]⟩ : Shape).Idx → EReal) (r : Fin n) (q : Fin d) :
    EReal :=
  ∑ t : Fin k, x (ix2 r t) * w (ix2 q t)

/-- The mean message of each node: its segment sum over its edge count clamped below at `one`. -/
def mean (s : (⟨2, ![n, k]⟩ : Shape).Idx → EReal) (cnt : (⟨1, ![n]⟩ : Shape).Idx → EReal) (one : EReal) :
    (⟨2, ![n, k]⟩ : Shape).Idx → EReal :=
  fun i => Ideal.div (s (ix2 (i 0) (i 1))) (max (cnt (ix1 (i 0))) one)

theorem mean_apply (s : (⟨2, ![n, k]⟩ : Shape).Idx → EReal) (cnt : (⟨1, ![n]⟩ : Shape).Idx → EReal) (one : EReal)
    (r : Fin n) (t : Fin k) : mean s cnt one (ix2 r t) = Ideal.div (s (ix2 r t)) (max (cnt (ix1 r)) one) := rfl

/-- The message-passing entry with the bias added last: `(self + message) + bias`. -/
def convBiasLast (x : (⟨2, ![n, k]⟩ : Shape).Idx → EReal) (wroot : (⟨2, ![d, k]⟩ : Shape).Idx → EReal)
    (agg : (⟨2, ![n, k]⟩ : Shape).Idx → EReal) (wrel : (⟨2, ![d, k]⟩ : Shape).Idx → EReal)
    (b : (⟨1, ![d]⟩ : Shape).Idx → EReal) : (⟨2, ![n, d]⟩ : Shape).Idx → EReal :=
  fun i => (rowDot x wroot (i 0) (i 1) + rowDot agg wrel (i 0) (i 1)) + b (ix1 (i 1))

/-- The message-passing entry with the bias added to the self term first: `(self + bias) + message`. -/
def convBiasFirst (x : (⟨2, ![n, k]⟩ : Shape).Idx → EReal) (wroot : (⟨2, ![d, k]⟩ : Shape).Idx → EReal)
    (agg : (⟨2, ![n, k]⟩ : Shape).Idx → EReal) (wrel : (⟨2, ![d, k]⟩ : Shape).Idx → EReal)
    (b : (⟨1, ![d]⟩ : Shape).Idx → EReal) : (⟨2, ![n, d]⟩ : Shape).Idx → EReal :=
  fun i => (rowDot x wroot (i 0) (i 1) + b (ix1 (i 1))) + rowDot agg wrel (i 0) (i 1)

/-- The two arrangements of the message-passing entry are one array, for ANY extended-real entries. -/
theorem convBiasLast_eq_convBiasFirst (x : (⟨2, ![n, k]⟩ : Shape).Idx → EReal)
    (wroot : (⟨2, ![d, k]⟩ : Shape).Idx → EReal) (agg : (⟨2, ![n, k]⟩ : Shape).Idx → EReal)
    (wrel : (⟨2, ![d, k]⟩ : Shape).Idx → EReal) (b : (⟨1, ![d]⟩ : Shape).Idx → EReal) :
    convBiasLast x wroot agg wrel b = convBiasFirst x wroot agg wrel b :=
  funext fun _ => add_right_comm _ _ _

/-- The twin entry with the two weight rows summed before the product: `sum_t xp r t * (wroot q t + wrel q t) + bias`. -/
def twinMerged (xp : (⟨2, ![n, k]⟩ : Shape).Idx → EReal) (wroot wrel : (⟨2, ![d, k]⟩ : Shape).Idx → EReal)
    (b : (⟨1, ![d]⟩ : Shape).Idx → EReal) : (⟨2, ![n, d]⟩ : Shape).Idx → EReal :=
  fun i => (∑ t : Fin k, xp (ix2 (i 0) t) * (wroot (ix2 (i 1) t) + wrel (ix2 (i 1) t))) + b (ix1 (i 1))

/-- The twin entry as two products: `(xp · wroot + bias) + xp · wrel`. -/
def twinSplit (xp : (⟨2, ![n, k]⟩ : Shape).Idx → EReal) (wroot wrel : (⟨2, ![d, k]⟩ : Shape).Idx → EReal)
    (b : (⟨1, ![d]⟩ : Shape).Idx → EReal) : (⟨2, ![n, d]⟩ : Shape).Idx → EReal :=
  fun i => (rowDot xp wroot (i 0) (i 1) + b (ix1 (i 1))) + rowDot xp wrel (i 0) (i 1)

/-- The two arrangements of the twin entry are one array when the features and both weight matrices are real: the bias
    may be any extended real. -/
theorem twinMerged_eq_twinSplit (xp : (⟨2, ![n, k]⟩ : Shape).Idx → EReal)
    (wroot wrel : (⟨2, ![d, k]⟩ : Shape).Idx → EReal) (b : (⟨1, ![d]⟩ : Shape).Idx → EReal)
    (hx : ∀ i, ∃ r : ℝ, xp i = (r : EReal)) (hroot : ∀ i, ∃ r : ℝ, wroot i = (r : EReal))
    (hrel : ∀ i, ∃ r : ℝ, wrel i = (r : EReal)) :
    twinMerged xp wroot wrel b = twinSplit xp wroot wrel b := by
  funext i
  show (∑ t : Fin k, xp (ix2 (i 0) t) * (wroot (ix2 (i 1) t) + wrel (ix2 (i 1) t))) + b (ix1 (i 1))
      = ((∑ t : Fin k, xp (ix2 (i 0) t) * wroot (ix2 (i 1) t)) + b (ix1 (i 1)))
        + ∑ t : Fin k, xp (ix2 (i 0) t) * wrel (ix2 (i 1) t)
  rw [Cert.LibSageMerge.sum_mul_add_of_real Finset.univ (fun t => xp (ix2 (i 0) t)) (fun t => wroot (ix2 (i 1) t))
    (fun t => wrel (ix2 (i 1) t)) (fun t _ => hx _) (fun t _ => hroot _) (fun t _ => hrel _)]
  exact add_right_comm _ _ _

end Cert.TwinConv

end
-- ==== Proof.LibFiniteReal.lean ====
/-
  Finite entries are real numbers — the part that does not depend on any one program.

  On the extended reals the absolute value `max x (-x)` is below `+∞` exactly when `x` is the image of a real number: at
  `⊤` it is `⊤`, and at `⊥` it is `-⊥ = ⊤` (which is also how an undefined value reads). The word `0x7F800000` denotes
  `+∞`. So where the comparison bit "`|X i| < +∞`" of a printed finiteness predicate is one, `X i` is real
  (`real_of_lt_inf`, over any shape), and where the `and` of those bits over every index of an array is one — the
  predicate's `jnp.all` — every entry of the array is real (`real_of_all`; `real_of_all_scalar` for rank zero).
-/
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

namespace Cert.Finite

open Idealize.ShloMosaic Idealize.SL.Sem

/-- The shape of rank zero has exactly one index. -/
instance subsingleton_scalar_idx : Subsingleton (⟨0, ![]⟩ : Shape).Idx :=
  ⟨fun a b => funext fun d => d.elim0⟩

/-- The word `0x7F800000` (sign 0, exponent all ones, fraction 0) denotes `+∞`. -/
theorem inf_word : Ideal.ofBits .f32 0x7F800000#32 = (⊤ : EReal) := by
  simp [Ideal.ofBits, Ideal.ieee]

/-- A one-bit word made from a Boolean is one only when the Boolean is true. -/
theorem eq_true_of_ofBool {b : Bool} (h : BitVec.ofBool b = 1#1) : b = true := by
  cases b
  · exact absurd h (by decide)
  · rfl

/-- An extended real whose absolute value `max x (-x)` is below `⊤` is a real number:
    at `x = ⊤` the maximum is `⊤`, and at `x = ⊥` it is `-⊥ = ⊤`. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The comparison bit "`|x| < +∞`" being one makes `x` a real number. -/
theorem real_of_cmp (x : EReal)
    (h : Ideal.cmp .olt (max x (-x)) (Ideal.ofBits .f32 0x7F800000#32) = 1#1) :
    ∃ r : ℝ, x = (r : EReal) := by
  rw [inf_word] at h
  have hb : BitVec.ofBool (decide (max x (-x) < ⊤)) = 1#1 := h
  exact real_of_abs_lt_top x (of_decide_eq_true (eq_true_of_ofBool hb))

/-- Elementwise, over any shape: where the bit "`|X i| < +∞`" (the bound a splat of the `+∞` word) is one,
    `X i` is a real number. -/
theorem real_of_lt_inf {s : Shape}
    (hb : Shape.BroadcastsInDim (⟨0, ![]⟩ : Shape) s (![] : Fin 0 → Fin s.rank))
    (X : FVec Ideal s .f32) (i : s.Idx)
    (h : cmpf .olt (Host.absf X)
          (broadcastInDim s ![] hb (constant (F := Ideal) (⟨0, ![]⟩ : Shape) .f32 0x7F800000#32)) i = 1#1) :
    ∃ r : ℝ, X i = (r : EReal) :=
  real_of_cmp (X i) h

/-- The same for an array of rank zero, whose bound is the `+∞` constant itself. -/
theorem real_of_lt_inf_scalar (X : FVec Ideal (⟨0, ![]⟩ : Shape) .f32) (i : (⟨0, ![]⟩ : Shape).Idx)
    (h : cmpf .olt (Host.absf X) (constant (F := Ideal) (⟨0, ![]⟩ : Shape) .f32 0x7F800000#32) i = 1#1) :
    ∃ r : ℝ, X i = (r : EReal) :=
  real_of_cmp (X i) h

/-- "All entries are finite", over any shape: if the `and` over every index of the bits "`|X i| < +∞`" is one,
    every entry of `X` is a real number. -/
theorem real_of_all {s : Shape} {axes : List (Fin s.rank)}
    (hb : Shape.BroadcastsInDim (⟨0, ![]⟩ : Shape) s (![] : Fin 0 → Fin s.rank))
    (hr : s.ReducesTo axes (⟨0, ![]⟩ : Shape)) (hu : 0 < (⟨0, ![]⟩ : Shape).numel)
    (X : FVec Ideal s .f32)
    (h : Host.reduce IntOp.andi
          (cmpf .olt (Host.absf X)
            (broadcastInDim s ![] hb (constant (F := Ideal) (⟨0, ![]⟩ : Shape) .f32 0x7F800000#32)))
          (constantI (⟨0, ![]⟩ : Shape) 1 1#1) hr hu ValueIdx.ix0 = 1#1)
    (i : s.Idx) : ∃ r : ℝ, X i = (r : EReal) :=
  real_of_lt_inf hb X i (Host.reduce_andi_all _ _ hr hu ValueIdx.ix0 h i)

/-- The same for an array of rank zero (the `and` runs over its one entry). -/
theorem real_of_all_scalar
    (hr : (⟨0, ![]⟩ : Shape).ReducesTo [] (⟨0, ![]⟩ : Shape)) (hu : 0 < (⟨0, ![]⟩ : Shape).numel)
    (X : FVec Ideal (⟨0, ![]⟩ : Shape) .f32)
    (h : Host.reduce IntOp.andi
          (cmpf .olt (Host.absf X) (constant (F := Ideal) (⟨0, ![]⟩ : Shape) .f32 0x7F800000#32))
          (constantI (⟨0, ![]⟩ : Shape) 1 1#1) hr hu ValueIdx.ix0 = 1#1)
    (i : (⟨0, ![]⟩ : Shape).Idx) : ∃ r : ℝ, X i = (r : EReal) :=
  real_of_lt_inf_scalar X i (Host.reduce_andi_all _ _ hr hu ValueIdx.ix0 h i)

/-- The `and` of two one-bit scalars is one only when both are. -/
theorem and_split {A B : IVec (⟨0, ![]⟩ : Shape) 1} (h : andi A B ValueIdx.ix0 = 1#1) :
    A ValueIdx.ix0 = 1#1 ∧ B ValueIdx.ix0 = 1#1 :=
  IntOp.andi_eq_one.1 h

end Cert.Finite
-- ==== Proof.Finite.lean ====
/-
  What the precondition gives: it is the `and` of ten bits, one per float argument, each the `and` over every index of
  "|entry| < +infinity". Where it is all ones every one of the ten bits is one, so every entry of every float argument is
  a real number. The layer's algebra needs this of the twin features and of the four weight matrices.
-/
import proofs.«182101_j34548716929228_2_alg».proof.Proof.Gen.Pre_finite_inputs
import proofs.«182101_j34548716929228_2_alg».proof.Proof.LibFiniteReal

noncomputable section

namespace Cert.Pre_finite_inputs.Reals

open Cert.Pre_finite_inputs Idealize.ShloMosaic

/-- Under the precondition the two twin feature matrices and the four weight matrices hold real numbers. -/
theorem of_pre (a0 a1 a2 a3 : FVec Ideal S50000x128 .f32) (a4 a5 a6 a7 : IVec S600000 32)
    (a8 : FVec Ideal S128x128 .f32) (a9 : FVec Ideal S128 .f32) (a10 : FVec Ideal S128x128 .f32)
    (a11 : FVec Ideal S128 .f32) (a12 a13 : FVec Ideal S128x128 .f32)
    (h : fn (F := Ideal) a0 a1 a2 a3 a4 a5 a6 a7 a8 a9 a10 a11 a12 a13 = fun _ => 1#1) :
    (∀ i, ∃ r : ℝ, a2 i = (r : EReal)) ∧ (∀ i, ∃ r : ℝ, a3 i = (r : EReal)) ∧ (∀ i, ∃ r : ℝ, a8 i = (r : EReal))
      ∧ (∀ i, ∃ r : ℝ, a10 i = (r : EReal)) ∧ (∀ i, ∃ r : ℝ, a12 i = (r : EReal))
      ∧ (∀ i, ∃ r : ℝ, a13 i = (r : EReal)) := by
  have h0 := congrFun h ValueIdx.ix0
  dsimp only [fn, fn_part1, fn_part2] at h0
  obtain ⟨h43, b13⟩ := Cert.Finite.and_split h0
  obtain ⟨h38, b12⟩ := Cert.Finite.and_split h43
  obtain ⟨h33, -⟩ := Cert.Finite.and_split h38
  obtain ⟨h28, b10⟩ := Cert.Finite.and_split h33
  obtain ⟨h23, -⟩ := Cert.Finite.and_split h28
  obtain ⟨h18, b8⟩ := Cert.Finite.and_split h23
  obtain ⟨h13, b3⟩ := Cert.Finite.and_split h18
  obtain ⟨-, b2⟩ := Cert.Finite.and_split h13
  exact ⟨Cert.Finite.real_of_all _ _ _ a2 b2, Cert.Finite.real_of_all _ _ _ a3 b3, Cert.Finite.real_of_all _ _ _ a8 b8,
    Cert.Finite.real_of_all _ _ _ a10 b10, Cert.Finite.real_of_all _ _ _ a12 b12, Cert.Finite.real_of_all _ _ _ a13 b13⟩

end Cert.Pre_finite_inputs.Reals

end
-- ==== Proof.LibBlockRead.lean ====
/-
  Vector operations of a rank-two block read at an index written by its two coordinates, at any extents.

  * a column `[a, 1]` broadcast along the rows to `[a, b]` reads, at `(p, c)`, the column at `p`;
  * a vector `[a]` cast to a column `[a, 1]` reads, at `(p, 0)`, the vector at `p`;
  * the sum of a `[a, b]` block along its second axis is, at row `p`, the sum over `k` of the block at `(p, k)`;
  * a matrix product `[m, k] · [k, n]` into a zero accumulator is, at `(p, c)`, the sum over `t` of the left factor
    at `(p, t)` times the right factor at `(t, c)` — given where the dimension numbers send an output index and a
    contraction index (four coordinate facts, each one line at a literal record).
-/
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.Sage.BlockRead

open Idealize.ShloMosaic Idealize.ShloMosaic.ValueIdx

variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A vector `[a]` cast to a column `[a, 1]` reads, at `(p, u)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- The sum of a `[a, b]` block along its second axis, at row `p`: the sum over `k` of the block at `(p, k)`. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A product of a `[m, k]` block with a `[k, n]` block into a zero accumulator, at `(p, c)`. -/
theorem matmul_apply2 {m k n : ℕ} {φ₁ φ₂ : FTy} (D : DotDims ⟨2, ![m, k]⟩ ⟨2, ![k, n]⟩ ⟨2, ![m, n]⟩)
    (prec : Option ContractPrecision) (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (lhs : FVec Ideal ⟨2, ![m, k]⟩ φ₁) (rhs : FVec Ideal ⟨2, ![k, n]⟩ φ₂) (p : Fin m) (c : Fin n) :
    FloatOps.matmul D prec lhs rhs (constant ⟨2, ![m, n]⟩ .f32 0x00000000#32) (ix2 p c)
      = ∑ t : Fin k, lhs (ix2 p t) * rhs (ix2 t c) := by
  rw [Ideal.matmul_constant_zero_apply, ← Equiv.sum_comp (contrEquiv1 D k hr hs).symm]
  refine Finset.sum_congr rfl fun t _ => ?_
  have hk := contrEquiv1_symm_val D k hr hs t
  have el : D.lhsIdx (ix2 p c) ((contrEquiv1 D k hr hs).symm t) = ix2 p t := funext fun ax => Fin.ext (by
    match ax with
    | ⟨0, _⟩ => exact hl0 _ _
    | ⟨1, _⟩ => exact (hl1 _ _).trans hk)
  have er : D.rhsIdx (ix2 p c) ((contrEquiv1 D k hr hs).symm t) = ix2 t c := funext fun ax => Fin.ext (by
    match ax with
    | ⟨0, _⟩ => exact (hr0 _ _).trans hk
    | ⟨1, _⟩ => exact hr1 _ _)
  rw [el, er]

end Cert.Sage.BlockRead

end
-- ==== Proof.KernelBlock.lean ====
/-
  One block of the kernel body, read at a row `p` of the block and an output channel `q`.

  The body holds a [2000, 128] block of each node-feature array, a [2000, 1] block of each edge count, the six
  [128, 128] weight matrices whole (already transposed, so entry (t, q) is the weight of input channel t for output
  channel q) and the two biases as rows [1, 128]. What it stores:

    * the mean message of the block's rows: the segment sum at (p, t) divided by the count of row p clamped below at
      one — the count is a column, spread along the 128 channels;
    * each message-passing output at (p, q): the block's row p against column q of the root weights, plus the mean
      messages' row p against column q of the relation weights, plus the bias at q;
    * each twin output at (p, q): the block's row p against column q of the summed weights, plus the bias at q.

  A matrix product into a zero accumulator is a plain sum over the contracted channel, a change of float format is the
  identity on the extended reals, and a cast of a block to its own shape is the block.
-/
import proofs.«182101_j34548716929228_2_alg».proof.Proof.Gen.KernelIdeal.Skeleton
import proofs.«182101_j34548716929228_2_alg».proof.Proof.LibBlockRead
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- The dimension numbers of the body's one kind of product: rows of the left block against columns of the right. -/
abbrev rowsByCols : DotDims S2000x128 S128x128 S2000x128 := dot_S2000x128_S128x128_S2000x128_1_0_0_1_n_n

/-- The left operand is read in the output's row. -/
theorem lhs_row (i : S2000x128.Idx) (q : rowsByCols.contr.Idx) : (rowsByCols.lhsIdx i q 0).val = (i 0).val := by
  unfold DotDims.lhsIdx
  rw [dif_neg (show ¬(0 : Fin S2000x128.rank) ∈ rowsByCols.lhsBatch by decide),
    dif_pos (show (0 : Fin S2000x128.rank) ∈ rowsByCols.lhsNonContracting by decide)]
  rfl

/-- The left operand is read in the contracted channel. -/
theorem lhs_chan (i : S2000x128.Idx) (q : rowsByCols.contr.Idx) :
    (rowsByCols.lhsIdx i q 1).val = (q ⟨0, by decide⟩).val :=
  rowsByCols.lhsIdx_val_of_single rfl i q

/-- The right operand is read in the contracted channel. -/
theorem rhs_chan (i : S2000x128.Idx) (q : rowsByCols.contr.Idx) :
    (rowsByCols.rhsIdx i q 0).val = (q ⟨0, by decide⟩).val :=
  rowsByCols.rhsIdx_val_of_single rfl i q

/-- The right operand is read in the output's column. -/
theorem rhs_col (i : S2000x128.Idx) (q : rowsByCols.contr.Idx) : (rowsByCols.rhsIdx i q 1).val = (i 1).val := by
  unfold DotDims.rhsIdx
  rw [dif_neg (show ¬(1 : Fin S128x128.rank) ∈ rowsByCols.rhsBatch by decide),
    dif_pos (show (1 : Fin S128x128.rank) ∈ rowsByCols.rhsNonContracting by decide)]
  rfl

/-- A block against a weight matrix, into a zero accumulator: at `(p, q)` the sum over the channel `t` of the block at
    `(p, t)` times the weights at `(t, q)`. -/
theorem product_apply (l : FVec Ideal S2000x128 .bf16) (r : FVec Ideal S128x128 .bf16) (p : Fin 2000) (q : Fin 128) :
    matmul rowsByCols none l r (constant S2000x128 .f32 0x00000000#32) (ix2 p q)
      = ∑ t : Fin 128, l (ix2 p t) * r (ix2 t q) :=
  Cert.Sage.BlockRead.matmul_apply2 rowsByCols none rfl rfl lhs_row lhs_chan rhs_chan rhs_col l r p q

/-- The mean message of the block's row `p` at channel `t`: the segment sum over the row's count clamped below at one. -/
theorem meanBf_apply (cnt : Vec Ideal S2000x1 .f32) (s : Vec Ideal S2000x128 .f32) (p : Fin 2000) (t : Fin 128) :
    k0_pay13 cnt s (ix2 p t)
      = Ideal.div (s (ix2 p t)) (max (cnt (ix2 p (0 : Fin 1))) (Ideal.ofBits .f32 0x3F800000#32)) := by
  unfold k0_pay13
  show Ideal.div (shapeCast S2000x128 s shapeCasts_S2000x128_S2000x128 (ix2 p t))
      (broadcastTo S2000x128 (maximumf (F := Ideal) (shapeCast S2000x1 cnt shapeCasts_S2000x1_S2000x1)
        (broadcast S2000x1 (Scalar.ofBits (F := Ideal) .f32 0x3F800000#32))) broadcasts_S2000x1_S2000x128 (ix2 p t)) = _
  rw [shapeCast_self, shapeCast_self, Cert.Sage.BlockRead.broadcastTo_a1_ab_apply]
  rfl

/-- The same mean, kept in the wider format. -/
theorem mean_apply (cnt : Vec Ideal S2000x1 .f32) (s : Vec Ideal S2000x128 .f32) (p : Fin 2000) (t : Fin 128) :
    k0_pay14 cnt s (ix2 p t)
      = Ideal.div (s (ix2 p t)) (max (cnt (ix2 p (0 : Fin 1))) (Ideal.ofBits .f32 0x3F800000#32)) := by
  unfold k0_pay14
  show Ideal.div (shapeCast S2000x128 s shapeCasts_S2000x128_S2000x128 (ix2 p t))
      (broadcastTo S2000x128 (maximumf (F := Ideal) (shapeCast S2000x1 cnt shapeCasts_S2000x1_S2000x1)
        (broadcast S2000x1 (Scalar.ofBits (F := Ideal) .f32 0x3F800000#32))) broadcasts_S2000x1_S2000x128 (ix2 p t)) = _
  rw [shapeCast_self, shapeCast_self, Cert.Sage.BlockRead.broadcastTo_a1_ab_apply]
  rfl

/-- The first message-passing output at `(p, q)`: `(x · wroot + agg · wrel) + bias`, the mean messages `agg` arriving in
    the wider format. -/
theorem convA_apply (wroot wrel : FVec Ideal S128x128 .bf16) (b : FVec Ideal S1x128 .f32)
    (agg : FVec Ideal S2000x128 .f32) (x : Vec Ideal S2000x128 .f32) (p : Fin 2000) (q : Fin 128) :
    k0_pay1 wroot wrel b agg x (ix2 p q)
      = (∑ t : Fin 128, x (ix2 p t) * wroot (ix2 t q) + ∑ t : Fin 128, agg (ix2 p t) * wrel (ix2 t q))
        + b (ix2 (0 : Fin 1) q) := by
  unfold k0_pay1
  show (matmul rowsByCols none (truncf .bf16 x bitsLt_bf16_f32) wroot (constant S2000x128 .f32 0x00000000#32) (ix2 p q)
        + matmul rowsByCols none (truncf .bf16 agg bitsLt_bf16_f32) wrel (constant S2000x128 .f32 0x00000000#32) (ix2 p q))
      + broadcastTo S2000x128 b broadcasts_S1x128_S2000x128 (ix2 p q) = _
  rw [product_apply, product_apply, ValueIdx.broadcastTo_1b_ab_apply]
  rfl

/-- The second message-passing output at `(p, q)`, the mean messages arriving already narrowed. -/
theorem convB_apply (wroot wrel : FVec Ideal S128x128 .bf16) (b : FVec Ideal S1x128 .f32)
    (agg : FVec Ideal S2000x128 .bf16) (x : Vec Ideal S2000x128 .f32) (p : Fin 2000) (q : Fin 128) :
    k0_pay2 wroot wrel b agg x (ix2 p q)
      = (∑ t : Fin 128, x (ix2 p t) * wroot (ix2 t q) + ∑ t : Fin 128, agg (ix2 p t) * wrel (ix2 t q))
        + b (ix2 (0 : Fin 1) q) := by
  unfold k0_pay2
  show (matmul rowsByCols none (truncf .bf16 x bitsLt_bf16_f32) wroot (constant S2000x128 .f32 0x00000000#32) (ix2 p q)
        + matmul rowsByCols none agg wrel (constant S2000x128 .f32 0x00000000#32) (ix2 p q))
      + broadcastTo S2000x128 b broadcasts_S1x128_S2000x128 (ix2 p q) = _
  rw [product_apply, product_apply, ValueIdx.broadcastTo_1b_ab_apply]
  rfl

/-- The first twin output at `(p, q)`: the block's row against column `q` of the summed weights, plus the bias. -/
theorem twinA_apply (w : FVec Ideal S128x128 .bf16) (b : FVec Ideal S1x128 .f32) (x : Vec Ideal S2000x128 .f32)
    (p : Fin 2000) (q : Fin 128) :
    k0_pay3 w b x (ix2 p q) = (∑ t : Fin 128, x (ix2 p t) * w (ix2 t q)) + b (ix2 (0 : Fin 1) q) := by
  unfold k0_pay3
  show matmul rowsByCols none (truncf .bf16 x bitsLt_bf16_f32) w (constant S2000x128 .f32 0x00000000#32) (ix2 p q)
      + broadcastTo S2000x128 b broadcasts_S1x128_S2000x128 (ix2 p q) = _
  rw [product_apply, ValueIdx.broadcastTo_1b_ab_apply]
  rfl

/-- The second twin output at `(p, q)`. -/
theorem twinB_apply (w : FVec Ideal S128x128 .bf16) (b : FVec Ideal S1x128 .f32) (x : Vec Ideal S2000x128 .f32)
    (p : Fin 2000) (q : Fin 128) :
    k0_pay4 w b x (ix2 p q) = (∑ t : Fin 128, x (ix2 p t) * w (ix2 t q)) + b (ix2 (0 : Fin 1) q) := by
  unfold k0_pay4
  show matmul rowsByCols none (truncf .bf16 x bitsLt_bf16_f32) w (constant S2000x128 .f32 0x00000000#32) (ix2 p q)
      + broadcastTo S2000x128 b broadcasts_S1x128_S2000x128 (ix2 p q) = _
  rw [product_apply, ValueIdx.broadcastTo_1b_ab_apply]
  rfl

/-- A weight matrix cast to its own shape is the matrix (all six loads). -/
theorem weight_cast (v : Vec Ideal S128x128 .bf16) :
    k0_pay5 v = v ∧ k0_pay6 v = v ∧ k0_pay7 v = v ∧ k0_pay8 v = v ∧ k0_pay9 v = v ∧ k0_pay10 v = v :=
  ⟨shapeCast_self _ _, shapeCast_self _ _, shapeCast_self _ _, shapeCast_self _ _, shapeCast_self _ _, shapeCast_self _ _⟩

/-- A bias row cast to its own shape is the row (both loads). -/
theorem bias_cast (v : Vec Ideal S1x128 .f32) : k0_pay11 v = v ∧ k0_pay12 v = v :=
  ⟨shapeCast_self _ _, shapeCast_self _ _⟩

/-! ## The four stores, from the loaded blocks -/

/-- What the body stores into the first output's block, at `(p, q)`, from the blocks it loads. -/
theorem convA_block (wroot wrel : Vec Ideal S128x128 .bf16) (b : Vec Ideal S1x128 .f32) (cnt : Vec Ideal S2000x1 .f32)
    (s x : Vec Ideal S2000x128 .f32) (p : Fin 2000) (q : Fin 128) :
    k0_pay1 (k0_pay5 wroot) (k0_pay7 wrel) (k0_pay11 b) (k0_pay14 cnt s) x (ix2 p q)
      = (∑ t : Fin 128, x (ix2 p t) * wroot (ix2 t q)
          + ∑ t : Fin 128, Ideal.div (s (ix2 p t)) (max (cnt (ix2 p (0 : Fin 1))) (Ideal.ofBits .f32 0x3F800000#32)) * wrel (ix2 t q))
        + b (ix2 (0 : Fin 1) q) := by
  rw [convA_apply, (weight_cast wroot).1, (weight_cast wrel).2.2.1, (bias_cast b).1]
  simp only [mean_apply]

/-- What the body stores into the second output's block. -/
theorem convB_block (wroot wrel : Vec Ideal S128x128 .bf16) (b : Vec Ideal S1x128 .f32) (cnt : Vec Ideal S2000x1 .f32)
    (s x : Vec Ideal S2000x128 .f32) (p : Fin 2000) (q : Fin 128) :
    k0_pay2 (k0_pay6 wroot) (k0_pay8 wrel) (k0_pay12 b) (k0_pay13 cnt s) x (ix2 p q)
      = (∑ t : Fin 128, x (ix2 p t) * wroot (ix2 t q)
          + ∑ t : Fin 128, Ideal.div (s (ix2 p t)) (max (cnt (ix2 p (0 : Fin 1))) (Ideal.ofBits .f32 0x3F800000#32)) * wrel (ix2 t q))
        + b (ix2 (0 : Fin 1) q) := by
  rw [convB_apply, (weight_cast wroot).2.1, (weight_cast wrel).2.2.2.1, (bias_cast b).2]
  simp only [meanBf_apply]

/-- What the body stores into the third output's block. -/
theorem twinA_block (w : Vec Ideal S128x128 .bf16) (b : Vec Ideal S1x128 .f32) (x : Vec Ideal S2000x128 .f32)
    (p : Fin 2000) (q : Fin 128) :
    k0_pay3 (k0_pay9 w) (k0_pay11 b) x (ix2 p q)
      = (∑ t : Fin 128, x (ix2 p t) * w (ix2 t q)) + b (ix2 (0 : Fin 1) q) := by
  rw [twinA_apply, (weight_cast w).2.2.2.2.1, (bias_cast b).1]

/-- What the body stores into the fourth output's block. -/
theorem twinB_block (w : Vec Ideal S128x128 .bf16) (b : Vec Ideal S1x128 .f32) (x : Vec Ideal S2000x128 .f32)
    (p : Fin 2000) (q : Fin 128) :
    k0_pay4 (k0_pay10 w) (k0_pay12 b) x (ix2 p q)
      = (∑ t : Fin 128, x (ix2 p t) * w (ix2 t q)) + b (ix2 (0 : Fin 1) q) := by
  rw [twinB_apply, (weight_cast w).2.2.2.2.2, (bias_cast b).2]

end Cert.KernelIdeal.Block

end
-- ==== Proof.BlockIndex.lean ====
/-
  Where each window's block sits in its array, at a symbolic grid point.

  The grid has 25 points. At point t the ten [2000, 128] windows (six inputs, four outputs) and the two [2000, 1] count
  windows hold rows 2000 t .. 2000 t + 1999 of their arrays; the six weight windows and the two bias windows hold their
  whole array at every point. So entry (p, k) of a tiled block is entry (2000 t + p, k) of its array, and an entry of a
  whole block is the same entry of the array. Every row r of an output array lies in the block of point r / 2000, which is
  written back: the 25 blocks cover the array.
-/
import proofs.«182101_j34548716929228_2_alg».proof.Proof.Gen.KernelIdeal.Frame
import proofs.«182101_j34548716929228_2_alg».proof.Proof.Gen.KernelIdeal.Points
import Idealize.ShloMosaic.Lib.ValueIdx
import Idealize.ShloMosaic.Lib.Pipeline.Value

noncomputable section

namespace Cert.KernelIdeal.BlockIndex

open Cert.KernelIdeal Cert.KernelIdeal.Gen Idealize.ShloMosaic Idealize.ShloMosaic.TcCoe Idealize.SL.Sem
open Idealize.ShloMosaic.ValueIdx

theorem nPoints : cfg0.N = 25 := N_0

/-- Row `p` of point `t`'s block is row `2000 t + p` of the array. -/
def row (t : Fin cfg0.N) (p : Fin 2000) : Fin 50000 :=
  ⟨t.val * 2000 + p.val, by have := t.isLt; have := nPoints; have := p.isLt; omega⟩

theorem row_val (t : Fin cfg0.N) (p : Fin 2000) : (row t p).val = t.val * 2000 + p.val := rfl

/-- The printed index maps, decided over the 25 points: a tiled window's block index is (t, 0). -/
theorem tiled : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_16.index t (0 : Fin 2) = t.val ∧ win0_16.index t (1 : Fin 2) = 0)
    ∧ (win0_17.index t (0 : Fin 2) = t.val ∧ win0_17.index t (1 : Fin 2) = 0)
    ∧ (win0_18.index t (0 : Fin 2) = t.val ∧ win0_18.index t (1 : Fin 2) = 0)
    ∧ (win0_19.index t (0 : Fin 2) = t.val ∧ win0_19.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- A whole window's block index is (0, 0) at every point. -/
theorem whole : ∀ t : Fin cfg0.N, (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0) :=
  (by decide +kernel : ∀ t : Fin grid0.N, _)

theorem emb0 (t : Fin cfg0.N) (p : Fin 2000) (k : Fin 128) :
    ((cfg0.win 0).blk t).view.emb (ix2 p k) = (ix2 (row t p) k : S50000x128.Idx) := by
  funext a
  apply Fin.ext
  have h := tiled t
  obtain ⟨e0, e1⟩ := h.1
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

theorem emb1 (t : Fin cfg0.N) (p : Fin 2000) (k : Fin 128) :
    ((cfg0.win 1).blk t).view.emb (ix2 p k) = (ix2 (row t p) k : S50000x128.Idx) := by
  funext a
  apply Fin.ext
  have h := tiled t
  obtain ⟨e0, e1⟩ := h.2.1
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

theorem emb2 (t : Fin cfg0.N) (p : Fin 2000) (k : Fin 128) :
    ((cfg0.win 2).blk t).view.emb (ix2 p k) = (ix2 (row t p) k : S50000x128.Idx) := by
  funext a
  apply Fin.ext
  have h := tiled t
  obtain ⟨e0, e1⟩ := h.2.2.1
  match a with
  | ⟨0, _⟩ => show win0_2.index t (0 : Fin 2) * 2000 + 1 * p.val = t.val * 2000 + p.val; rw [e0]; omega
  | ⟨1, _⟩ => show win0_2.index t (1 : Fin 2) * 128 + 1 * k.val = k.val; rw [e1]; omega

theorem emb3 (t : Fin cfg0.N) (p : Fin 2000) (k : Fin 128) :
    ((cfg0.win 3).blk t).view.emb (ix2 p k) = (ix2 (row t p) k : S50000x128.Idx) := by
  funext a
  apply Fin.ext
  have h := tiled t
  obtain ⟨e0, e1⟩ := h.2.2.2.1
  match a with
  | ⟨0, _⟩ => show win0_3.index t (0 : Fin 2) * 2000 + 1 * p.val = t.val * 2000 + p.val; rw [e0]; omega
  | ⟨1, _⟩ => show win0_3.index t (1 : Fin 2) * 128 + 1 * k.val = k.val; rw [e1]; omega

theorem emb4 (t : Fin cfg0.N) (p : Fin 2000) (k : Fin 128) :
    ((cfg0.win 4).blk t).view.emb (ix2 p k) = (ix2 (row t p) k : S50000x128.Idx) := by
  funext a
  apply Fin.ext
  have h := tiled t
  obtain ⟨e0, e1⟩ := h.2.2.2.2.1
  match a with
  | ⟨0, _⟩ => show win0_4.index t (0 : Fin 2) * 2000 + 1 * p.val = t.val * 2000 + p.val; rw [e0]; omega
  | ⟨1, _⟩ => show win0_4.index t (1 : Fin 2) * 128 + 1 * k.val = k.val; rw [e1]; omega

theorem emb5 (t : Fin cfg0.N) (p : Fin 2000) (k : Fin 128) :
    ((cfg0.win 5).blk t).view.emb (ix2 p k) = (ix2 (row t p) k : S50000x128.Idx) := by
  funext a
  apply Fin.ext
  have h := tiled t
  obtain ⟨e0, e1⟩ := h.2.2.2.2.2.1
  match a with
  | ⟨0, _⟩ => show win0_5.index t (0 : Fin 2) * 2000 + 1 * p.val = t.val * 2000 + p.val; rw [e0]; omega
  | ⟨1, _⟩ => show win0_5.index t (1 : Fin 2) * 128 + 1 * k.val = k.val; rw [e1]; omega

theorem emb16 (t : Fin cfg0.N) (p : Fin 2000) (k : Fin 128) :
    ((cfg0.win 16).blk t).view.emb (ix2 p k) = (ix2 (row t p) k : S50000x128.Idx) := by
  funext a
  apply Fin.ext
  have h := tiled t
  obtain ⟨e0, e1⟩ := h.2.2.2.2.2.2.1
  match a with
  | ⟨0, _⟩ => show win0_16.index t (0 : Fin 2) * 2000 + 1 * p.val = t.val * 2000 + p.val; rw [e0]; omega
  | ⟨1, _⟩ => show win0_16.index t (1 : Fin 2) * 128 + 1 * k.val = k.val; rw [e1]; omega

theorem emb17 (t : Fin cfg0.N) (p : Fin 2000) (k : Fin 128) :
    ((cfg0.win 17).blk t).view.emb (ix2 p k) = (ix2 (row t p) k : S50000x128.Idx) := by
  funext a
  apply Fin.ext
  have h := tiled t
  obtain ⟨e0, e1⟩ := h.2.2.2.2.2.2.2.1
  match a with
  | ⟨0, _⟩ => show win0_17.index t (0 : Fin 2) * 2000 + 1 * p.val = t.val * 2000 + p.val; rw [e0]; omega
  | ⟨1, _⟩ => show win0_17.index t (1 : Fin 2) * 128 + 1 * k.val = k.val; rw [e1]; omega

theorem emb18 (t : Fin cfg0.N) (p : Fin 2000) (k : Fin 128) :
    ((cfg0.win 18).blk t).view.emb (ix2 p k) = (ix2 (row t p) k : S50000x128.Idx) := by
  funext a
  apply Fin.ext
  have h := tiled t
  obtain ⟨e0, e1⟩ := h.2.2.2.2.2.2.2.2.1
  match a with
  | ⟨0, _⟩ => show win0_18.index t (0 : Fin 2) * 2000 + 1 * p.val = t.val * 2000 + p.val; rw [e0]; omega
  | ⟨1, _⟩ => show win0_18.index t (1 : Fin 2) * 128 + 1 * k.val = k.val; rw [e1]; omega

theorem emb19 (t : Fin cfg0.N) (p : Fin 2000) (k : Fin 128) :
    ((cfg0.win 19).blk t).view.emb (ix2 p k) = (ix2 (row t p) k : S50000x128.Idx) := by
  funext a
  apply Fin.ext
  have h := tiled t
  obtain ⟨e0, e1⟩ := h.2.2.2.2.2.2.2.2.2.1
  match a with
  | ⟨0, _⟩ => show win0_19.index t (0 : Fin 2) * 2000 + 1 * p.val = t.val * 2000 + p.val; rw [e0]; omega
  | ⟨1, _⟩ => show win0_19.index t (1 : Fin 2) * 128 + 1 * k.val = k.val; rw [e1]; omega

theorem emb6 (t : Fin cfg0.N) (p : Fin 2000) :
    ((cfg0.win 6).blk t).view.emb (ix2 p (0 : Fin 1)) = (ix2 (row t p) (0 : Fin 1) : S50000x1.Idx) := by
  funext a
  apply Fin.ext
  have h := tiled t
  obtain ⟨e0, e1⟩ := h.2.2.2.2.2.2.2.2.2.2.1
  match a with
  | ⟨0, _⟩ => show win0_6.index t (0 : Fin 2) * 2000 + 1 * p.val = t.val * 2000 + p.val; rw [e0]; omega
  | ⟨1, _⟩ => show win0_6.index t (1 : Fin 2) * 1 + 1 * 0 = 0; rw [e1]

theorem emb7 (t : Fin cfg0.N) (p : Fin 2000) :
    ((cfg0.win 7).blk t).view.emb (ix2 p (0 : Fin 1)) = (ix2 (row t p) (0 : Fin 1) : S50000x1.Idx) := by
  funext a
  apply Fin.ext
  have h := tiled t
  obtain ⟨e0, e1⟩ := h.2.2.2.2.2.2.2.2.2.2.2
  match a with
  | ⟨0, _⟩ => show win0_7.index t (0 : Fin 2) * 2000 + 1 * p.val = t.val * 2000 + p.val; rw [e0]; omega
  | ⟨1, _⟩ => show win0_7.index t (1 : Fin 2) * 1 + 1 * 0 = 0; rw [e1]

theorem emb8 (t : Fin cfg0.N) (k q : Fin 128) :
    ((cfg0.win 8).blk t).view.emb (ix2 k q) = (ix2 k q : S128x128.Idx) := by
  funext a
  apply Fin.ext
  have h := whole t
  obtain ⟨e0, e1⟩ := h.1
  match a with
  | ⟨0, _⟩ => show win0_8.index t (0 : Fin 2) * 128 + 1 * k.val = k.val; rw [e0]; omega
  | ⟨1, _⟩ => show win0_8.index t (1 : Fin 2) * 128 + 1 * q.val = q.val; rw [e1]; omega

theorem emb9 (t : Fin cfg0.N) (k q : Fin 128) :
    ((cfg0.win 9).blk t).view.emb (ix2 k q) = (ix2 k q : S128x128.Idx) := by
  funext a
  apply Fin.ext
  have h := whole t
  obtain ⟨e0, e1⟩ := h.2.1
  match a with
  | ⟨0, _⟩ => show win0_9.index t (0 : Fin 2) * 128 + 1 * k.val = k.val; rw [e0]; omega
  | ⟨1, _⟩ => show win0_9.index t (1 : Fin 2) * 128 + 1 * q.val = q.val; rw [e1]; omega

theorem emb10 (t : Fin cfg0.N) (k q : Fin 128) :
    ((cfg0.win 10).blk t).view.emb (ix2 k q) = (ix2 k q : S128x128.Idx) := by
  funext a
  apply Fin.ext
  have h := whole t
  obtain ⟨e0, e1⟩ := h.2.2.1
  match a with
  | ⟨0, _⟩ => show win0_10.index t (0 : Fin 2) * 128 + 1 * k.val = k.val; rw [e0]; omega
  | ⟨1, _⟩ => show win0_10.index t (1 : Fin 2) * 128 + 1 * q.val = q.val; rw [e1]; omega

theorem emb11 (t : Fin cfg0.N) (k q : Fin 128) :
    ((cfg0.win 11).blk t).view.emb (ix2 k q) = (ix2 k q : S128x128.Idx) := by
  funext a
  apply Fin.ext
  have h := whole t
  obtain ⟨e0, e1⟩ := h.2.2.2.1
  match a with
  | ⟨0, _⟩ => show win0_11.index t (0 : Fin 2) * 128 + 1 * k.val = k.val; rw [e0]; omega
  | ⟨1, _⟩ => show win0_11.index t (1 : Fin 2) * 128 + 1 * q.val = q.val; rw [e1]; omega

theorem emb12 (t : Fin cfg0.N) (k q : Fin 128) :
    ((cfg0.win 12).blk t).view.emb (ix2 k q) = (ix2 k q : S128x128.Idx) := by
  funext a
  apply Fin.ext
  have h := whole t
  obtain ⟨e0, e1⟩ := h.2.2.2.2.1
  match a with
  | ⟨0, _⟩ => show win0_12.index t (0 : Fin 2) * 128 + 1 * k.val = k.val; rw [e0]; omega
  | ⟨1, _⟩ => show win0_12.index t (1 : Fin 2) * 128 + 1 * q.val = q.val; rw [e1]; omega

theorem emb13 (t : Fin cfg0.N) (k q : Fin 128) :
    ((cfg0.win 13).blk t).view.emb (ix2 k q) = (ix2 k q : S128x128.Idx) := by
  funext a
  apply Fin.ext
  have h := whole t
  obtain ⟨e0, e1⟩ := h.2.2.2.2.2.1
  match a with
  | ⟨0, _⟩ => show win0_13.index t (0 : Fin 2) * 128 + 1 * k.val = k.val; rw [e0]; omega
  | ⟨1, _⟩ => show win0_13.index t (1 : Fin 2) * 128 + 1 * q.val = q.val; rw [e1]; omega

theorem emb14 (t : Fin cfg0.N) (q : Fin 128) :
    ((cfg0.win 14).blk t).view.emb (ix2 (0 : Fin 1) q) = (ix2 (0 : Fin 1) q : S1x128.Idx) := by
  funext a
  apply Fin.ext
  have h := whole t
  obtain ⟨e0, e1⟩ := h.2.2.2.2.2.2.1
  match a with
  | ⟨0, _⟩ => show win0_14.index t (0 : Fin 2) * 1 + 1 * 0 = 0; rw [e0]
  | ⟨1, _⟩ => show win0_14.index t (1 : Fin 2) * 128 + 1 * q.val = q.val; rw [e1]; omega

theorem emb15 (t : Fin cfg0.N) (q : Fin 128) :
    ((cfg0.win 15).blk t).view.emb (ix2 (0 : Fin 1) q) = (ix2 (0 : Fin 1) q : S1x128.Idx) := by
  funext a
  apply Fin.ext
  have h := whole t
  obtain ⟨e0, e1⟩ := h.2.2.2.2.2.2.2
  match a with
  | ⟨0, _⟩ => show win0_15.index t (0 : Fin 2) * 1 + 1 * 0 = 0; rw [e0]
  | ⟨1, _⟩ => show win0_15.index t (1 : Fin 2) * 128 + 1 * q.val = q.val; rw [e1]; omega

/-! ## The output blocks cover their arrays -/

/-- An index of output 0's array is in point `t`'s block iff each coordinate is in the block's range on its axis. -/
theorem mem_blk16 (t : Fin cfg0.N) (i : S50000x128.Idx) :
    i ∈ ((cfg0.win 16).blk t).view.set ↔ ∀ a : Fin 2, win0_16.index t a * S2000x128.size a ≤ (i a).val
      ∧ (i a).val < win0_16.index t a * S2000x128.size a + S2000x128.size a := by
  show i ∈ ((View.whole main_v46_0).slice (win0_16.rect t)).set ↔ _
  rw [View.set_slice_whole, Rect.mem_set_unit]
  exact Iff.rfl

/-- Every index of output 0's array is in the block of a point that is written back. -/
theorem cover16 (i : S50000x128.Idx) :
    ∃ t : Fin cfg0.N, (cfg0.win 16).flush t = true ∧ i ∈ ((cfg0.win 16).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by rw [nPoints]; omega⟩, rfl⟩
  refine ⟨t, flush0_16 t, ?_⟩
  rw [mem_blk16]
  have h := tiled t
  obtain ⟨e0, e1⟩ := h.2.2.2.2.2.2.1
  intro a
  match a with
  | ⟨0, _⟩ =>
    show win0_16.index t (0 : Fin 2) * 2000 ≤ (i 0).val ∧ (i 0).val < win0_16.index t (0 : Fin 2) * 2000 + 2000
    rw [e0, ht]; omega
  | ⟨1, _⟩ =>
    show win0_16.index t (1 : Fin 2) * 128 ≤ (i 1).val ∧ (i 1).val < win0_16.index t (1 : Fin 2) * 128 + 128
    rw [e1]; omega

/-- An index of output 1's array is in point `t`'s block iff each coordinate is in the block's range on its axis. -/
theorem mem_blk17 (t : Fin cfg0.N) (i : S50000x128.Idx) :
    i ∈ ((cfg0.win 17).blk t).view.set ↔ ∀ a : Fin 2, win0_17.index t a * S2000x128.size a ≤ (i a).val
      ∧ (i a).val < win0_17.index t a * S2000x128.size a + S2000x128.size a := by
  show i ∈ ((View.whole main_v46_1).slice (win0_17.rect t)).set ↔ _
  rw [View.set_slice_whole, Rect.mem_set_unit]
  exact Iff.rfl

/-- Every index of output 1's array is in the block of a point that is written back. -/
theorem cover17 (i : S50000x128.Idx) :
    ∃ t : Fin cfg0.N, (cfg0.win 17).flush t = true ∧ i ∈ ((cfg0.win 17).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by rw [nPoints]; omega⟩, rfl⟩
  refine ⟨t, flush0_17 t, ?_⟩
  rw [mem_blk17]
  have h := tiled t
  obtain ⟨e0, e1⟩ := h.2.2.2.2.2.2.2.1
  intro a
  match a with
  | ⟨0, _⟩ =>
    show win0_17.index t (0 : Fin 2) * 2000 ≤ (i 0).val ∧ (i 0).val < win0_17.index t (0 : Fin 2) * 2000 + 2000
    rw [e0, ht]; omega
  | ⟨1, _⟩ =>
    show win0_17.index t (1 : Fin 2) * 128 ≤ (i 1).val ∧ (i 1).val < win0_17.index t (1 : Fin 2) * 128 + 128
    rw [e1]; omega

/-- An index of output 2's array is in point `t`'s block iff each coordinate is in the block's range on its axis. -/
theorem mem_blk18 (t : Fin cfg0.N) (i : S50000x128.Idx) :
    i ∈ ((cfg0.win 18).blk t).view.set ↔ ∀ a : Fin 2, win0_18.index t a * S2000x128.size a ≤ (i a).val
      ∧ (i a).val < win0_18.index t a * S2000x128.size a + S2000x128.size a := by
  show i ∈ ((View.whole main_v46_2).slice (win0_18.rect t)).set ↔ _
  rw [View.set_slice_whole, Rect.mem_set_unit]
  exact Iff.rfl

/-- Every index of output 2's array is in the block of a point that is written back. -/
theorem cover18 (i : S50000x128.Idx) :
    ∃ t : Fin cfg0.N, (cfg0.win 18).flush t = true ∧ i ∈ ((cfg0.win 18).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by rw [nPoints]; omega⟩, rfl⟩
  refine ⟨t, flush0_18 t, ?_⟩
  rw [mem_blk18]
  have h := tiled t
  obtain ⟨e0, e1⟩ := h.2.2.2.2.2.2.2.2.1
  intro a
  match a with
  | ⟨0, _⟩ =>
    show win0_18.index t (0 : Fin 2) * 2000 ≤ (i 0).val ∧ (i 0).val < win0_18.index t (0 : Fin 2) * 2000 + 2000
    rw [e0, ht]; omega
  | ⟨1, _⟩ =>
    show win0_18.index t (1 : Fin 2) * 128 ≤ (i 1).val ∧ (i 1).val < win0_18.index t (1 : Fin 2) * 128 + 128
    rw [e1]; omega

/-- An index of output 3's array is in point `t`'s block iff each coordinate is in the block's range on its axis. -/
theorem mem_blk19 (t : Fin cfg0.N) (i : S50000x128.Idx) :
    i ∈ ((cfg0.win 19).blk t).view.set ↔ ∀ a : Fin 2, win0_19.index t a * S2000x128.size a ≤ (i a).val
      ∧ (i a).val < win0_19.index t a * S2000x128.size a + S2000x128.size a := by
  show i ∈ ((View.whole main_v46_3).slice (win0_19.rect t)).set ↔ _
  rw [View.set_slice_whole, Rect.mem_set_unit]
  exact Iff.rfl

/-- Every index of output 3's array is in the block of a point that is written back. -/
theorem cover19 (i : S50000x128.Idx) :
    ∃ t : Fin cfg0.N, (cfg0.win 19).flush t = true ∧ i ∈ ((cfg0.win 19).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by rw [nPoints]; omega⟩, rfl⟩
  refine ⟨t, flush0_19 t, ?_⟩
  rw [mem_blk19]
  have h := tiled t
  obtain ⟨e0, e1⟩ := h.2.2.2.2.2.2.2.2.2.1
  intro a
  match a with
  | ⟨0, _⟩ =>
    show win0_19.index t (0 : Fin 2) * 2000 ≤ (i 0).val ∧ (i 0).val < win0_19.index t (0 : Fin 2) * 2000 + 2000
    rw [e0, ht]; omega
  | ⟨1, _⟩ =>
    show win0_19.index t (1 : Fin 2) * 128 ≤ (i 1).val ∧ (i 1).val < win0_19.index t (1 : Fin 2) * 128 + 128
    rw [e1]; omega

end Cert.KernelIdeal.BlockIndex

end
-- ==== Proof.Segment.lean ====
/-
  The two aggregates the layer takes from the edge lists, as whole arrays on the extended reals.

  `segSum x src dst` gathers row `src e` of `x` for every edge `e` (a negative index counted from the end) and adds it
  into row `dst e` of an all-zero [50000, 128] array: row r ends holding the sum of the source rows over the edges that
  arrive at r. `segCount dst` adds a one into entry `dst e` of an all-zero [50000] array for every edge: entry r ends
  holding the number of edges that arrive at r. Nothing below opens either sum: both programs compute them by the same
  operations of the same arguments, and the layer only divides one by the other.
-/
import proofs.«182101_j34548716929228_2_alg».proof.Proof.Gen.KernelIdeal
import Idealize.ShloMosaic.PureOps.Ideal

noncomputable section

namespace Cert.KernelIdeal.Segment

open Cert.KernelIdeal Cert.KernelIdeal.Facts₀ Idealize.ShloMosaic

/-- Row r: the sum, over the edges e with `dst e = r`, of row `src e` of `x`. -/
def segSum (x : (⟨S50000x128, .f32⟩ : BufTy).Contents (Elt Ideal)) (src dst : (⟨S600000, .i32⟩ : BufTy).Contents (Elt Ideal)) :
    (⟨S50000x128, .f32⟩ : BufTy).Contents (Elt Ideal) :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 x
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

/-- Entry r: the number of edges e with `dst e = r`, as a sum of ones. -/
def segCount (dst : (⟨S600000, .i32⟩ : BufTy).Contents (Elt Ideal)) : (⟨S50000, .f32⟩ : BufTy).Contents (Elt Ideal) :=
  Host.scatterAdd scatter_S50000_S600000x1_S600000_n_0_0_1
    (broadcastInDim S50000 ![] bcast_S_S50000 (constant (F := Ideal) S_ .f32 0x00000000#32))
    (broadcastInDim S600000x1 ![0] bcast_S600000_S600000x1_0 dst)
    (broadcastInDim S600000 ![] bcast_S_S600000 (constant (F := Ideal) S_ .f32 0x3F800000#32))

end Cert.KernelIdeal.Segment

end
-- ==== Proof.LibColumnBroadcast.lean ====
/-
  A host's column broadcasts read at an index written by its coordinates, at any extents.

  * a vector `[a]` placed along axis 0 of a column `[a, 1]` reads, at `(p, u)`, the vector at `p`;
  * a column `[a, 1]` broadcast in dimensions (0, 1) to `[a, b]` reads, at `(p, c)`, the column at `p`;
  * so the two in a row — the host's spelling of `v[:, None]` against a matrix — read, at `(p, c)`, the vector at `p`.
-/
import Idealize.ShloMosaic.Lib.ValueLayout
import Idealize.ShloMosaic.Lib.ValueIdx
import Idealize.ShloMosaic.Lib.Pipeline.Value

noncomputable section

namespace Cert.LibColumnBroadcast

open Idealize.ShloMosaic Idealize.ShloMosaic.ValueIdx

variable {α : Type}

/-- A vector `[a]` placed along axis 0 of a column `[a, 1]` reads, at `(p, u)`, the vector's entry `p`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h x (ix2 p u) = x (ix1 p) :=
  broadcastInDim_apply _ h x (ix2 p u) (ix1 p) (fun ax => match ax with
    | ⟨0, _⟩ => by
      show p.val = if a = 1 then 0 else p.val
      split
      · have := p.isLt; omega
      · rfl)

/-- A column `[a, 1]` broadcast along the rows to `[a, b]` reads, at `(p, c)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) :=
  broadcastInDim_apply _ h x (ix2 p c) (ix2 p (0 : Fin 1)) (fun ax => match ax with
    | ⟨0, _⟩ => by
      show p.val = if a = 1 then 0 else p.val
      split
      · have := p.isLt; omega
      · rfl
    | ⟨1, _⟩ => by
      show (0 : ℕ) = if (1 : ℕ) = 1 then 0 else c.val
      rw [if_pos rfl])

/-- A vector `[a]` made a column and then broadcast along the rows to `[a, b]` reads, at `(p, c)`, its entry `p`. -/
theorem column_apply {a b : ℕ} (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 x) (ix2 p c) = x (ix1 p) :=
  (broadcastInDim_a1_ab_apply _ h2 p c).trans (broadcastInDim_a_a1_apply x h1 p 0)

end Cert.LibColumnBroadcast

end
-- ==== Proof.HostAggregates.lean ====
/-
  The arrays the kernel's region finds, computed by the host operations before it, I: the aggregates.

  The region's windows 4 and 5 stage the two segment sums and windows 6 and 7 the two edge counts, each count made a
  column [50000, 1]. Each is the composed term of the host operations that wrote it, of the arguments as launched; a
  count's column read at (r, 0) is the count at r.
-/
import proofs.«182101_j34548716929228_2_alg».proof.Proof.Gen.KernelIdeal.Frame
import proofs.«182101_j34548716929228_2_alg».proof.Proof.Segment
import proofs.«182101_j34548716929228_2_alg».proof.Proof.LibColumnBroadcast
import Idealize.ShloMosaic.Lib.StableHlo.Run
import Idealize.ShloMosaic.Lib.ValueIdx

noncomputable section

namespace Cert.KernelIdeal.HostArrays

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Window 4's array: the segment sum of the first node type's features along the first relation. -/
theorem sum_ab (c : Dev nD) :
    (V m c main_v9 : S50000x128.Idx → EReal) = Segment.segSum (m ((c : Thread nD τ).loc main_arg0)) (m ((c : Thread nD τ).loc main_arg4)) (m ((c : Thread nD τ).loc main_arg5)) := by
  dsimp only [V, hostOps0]
  after_results_simp <;> rfl

/-- Window 5's array: the segment sum of the second node type's features along the second relation. -/
theorem sum_ba (c : Dev nD) :
    (V m c main_v24 : S50000x128.Idx → EReal) = Segment.segSum (m ((c : Thread nD τ).loc main_arg1)) (m ((c : Thread nD τ).loc main_arg6)) (m ((c : Thread nD τ).loc main_arg7)) := by
  dsimp only [V, hostOps0]
  after_results_simp <;> rfl

/-- Window 6's array at (r, 0): the number of first-relation edges arriving at r. -/
theorem count_ab (c : Dev nD) (r : Fin 50000) :
    (V m c main_v14 : S50000x1.Idx → EReal) (ix2 r (0 : Fin 1)) = Segment.segCount (m ((c : Thread nD τ).loc main_arg5)) (ix1 r) := by
  have e : (V m c main_v14 : S50000x1.Idx → EReal)
      = broadcastInDim S50000x1 ![0] bcast_S50000_S50000x1_0 (Segment.segCount (m ((c : Thread nD τ).loc main_arg5))) := by
    dsimp only [V, hostOps0]
    after_results_simp <;> rfl
  rw [e]
  exact Cert.LibColumnBroadcast.broadcastInDim_a_a1_apply _ _ r 0

/-- Window 7's array at (r, 0): the number of second-relation edges arriving at r. -/
theorem count_ba (c : Dev nD) (r : Fin 50000) :
    (V m c main_v29 : S50000x1.Idx → EReal) (ix2 r (0 : Fin 1)) = Segment.segCount (m ((c : Thread nD τ).loc main_arg7)) (ix1 r) := by
  have e : (V m c main_v29 : S50000x1.Idx → EReal)
      = broadcastInDim S50000x1 ![0] bcast_S50000_S50000x1_0 (Segment.segCount (m ((c : Thread nD τ).loc main_arg7))) := by
    dsimp only [V, hostOps0]
    after_results_simp <;> rfl
  rw [e]
  exact Cert.LibColumnBroadcast.broadcastInDim_a_a1_apply _ _ r 0

end Cert.KernelIdeal.HostArrays

end
-- ==== Proof.HostWeights.lean ====
/-
  The arrays the kernel's region finds, II: the four weight matrices that are only transposed.

  Windows 8 to 11 stage a root or relation weight matrix transposed and narrowed; narrowing is the identity on the
  extended reals, so the staged array at (t, q) is the argument at (q, t).
-/
import proofs.«182101_j34548716929228_2_alg».proof.Proof.Gen.KernelIdeal.Frame
import Idealize.ShloMosaic.Lib.StableHlo.Run
import Idealize.ShloMosaic.Lib.ValueIdx
import Idealize.ShloMosaic.Lib.ValueLayout

noncomputable section

namespace Cert.KernelIdeal.HostArrays

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Window 8: the first type's root weights, transposed. -/
theorem root_a (c : Dev nD) (t q : Fin 128) :
    (V m c main_v31 : S128x128.Idx → EReal) (ix2 t q) = ((m ((c : Thread nD τ).loc main_arg8)) : S128x128.Idx → EReal) (ix2 q t) := by
  have e : (V m c main_v31 : S128x128.Idx → EReal)
      = truncf (F := Ideal) .bf16 (transpose S128x128 [1, 0] (m ((c : Thread nD τ).loc main_arg8)) transposes_S128x128_S128x128_1_0) bitsLt_bf16_f32 := by
    dsimp only [V, hostOps0]
    after_results_simp <;> rfl
  rw [e, truncf_apply]
  exact ValueIdx.transpose_ix2_apply _ _ t q

/-- Window 9: the second type's root weights, transposed. -/
theorem root_b (c : Dev nD) (t q : Fin 128) :
    (V m c main_v33 : S128x128.Idx → EReal) (ix2 t q) = ((m ((c : Thread nD τ).loc main_arg10)) : S128x128.Idx → EReal) (ix2 q t) := by
  have e : (V m c main_v33 : S128x128.Idx → EReal)
      = truncf (F := Ideal) .bf16 (transpose S128x128 [1, 0] (m ((c : Thread nD τ).loc main_arg10)) transposes_S128x128_S128x128_1_0) bitsLt_bf16_f32 := by
    dsimp only [V, hostOps0]
    after_results_simp <;> rfl
  rw [e, truncf_apply]
  exact ValueIdx.transpose_ix2_apply _ _ t q

/-- Window 10: the second relation's weights, transposed. -/
theorem rel_ba (c : Dev nD) (t q : Fin 128) :
    (V m c main_v37 : S128x128.Idx → EReal) (ix2 t q) = ((m ((c : Thread nD τ).loc main_arg13)) : S128x128.Idx → EReal) (ix2 q t) := by
  have e : (V m c main_v37 : S128x128.Idx → EReal)
      = truncf (F := Ideal) .bf16 (transpose S128x128 [1, 0] (m ((c : Thread nD τ).loc main_arg13)) transposes_S128x128_S128x128_1_0) bitsLt_bf16_f32 := by
    dsimp only [V, hostOps0]
    after_results_simp <;> rfl
  rw [e, truncf_apply]
  exact ValueIdx.transpose_ix2_apply _ _ t q

/-- Window 11: the first relation's weights, transposed. -/
theorem rel_ab (c : Dev nD) (t q : Fin 128) :
    (V m c main_v35 : S128x128.Idx → EReal) (ix2 t q) = ((m ((c : Thread nD τ).loc main_arg12)) : S128x128.Idx → EReal) (ix2 q t) := by
  have e : (V m c main_v35 : S128x128.Idx → EReal)
      = truncf (F := Ideal) .bf16 (transpose S128x128 [1, 0] (m ((c : Thread nD τ).loc main_arg12)) transposes_S128x128_S128x128_1_0) bitsLt_bf16_f32 := by
    dsimp only [V, hostOps0]
    after_results_simp <;> rfl
  rw [e, truncf_apply]
  exact ValueIdx.transpose_ix2_apply _ _ t q

end Cert.KernelIdeal.HostArrays

end
-- ==== Proof.HostMerged.lean ====
/-
  The arrays the kernel's region finds, III: the two summed weight matrices and the two biases.

  Windows 12 and 13 stage the entrywise sum of a root and a relation weight matrix, transposed and narrowed: at (t, q) the
  entrywise sum of the two arguments, read at (q, t). Windows 14 and 15 stage a bias vector [128] as a row [1, 128].
-/
import proofs.«182101_j34548716929228_2_alg».proof.Proof.Gen.KernelIdeal.Frame
import Idealize.ShloMosaic.Lib.StableHlo.Run
import Idealize.ShloMosaic.Lib.ValueIdx
import Idealize.ShloMosaic.Lib.ValueLayout

noncomputable section

namespace Cert.KernelIdeal.HostArrays

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Window 12: the first type's root weights plus the second relation's, transposed. -/
theorem merged_a (c : Dev nD) (t q : Fin 128) :
    (V m c main_v40 : S128x128.Idx → EReal) (ix2 t q)
      = addf (F := Ideal) (s := S128x128) (φ := .f32) (m ((c : Thread nD τ).loc main_arg8)) (m ((c : Thread nD τ).loc main_arg13)) (ix2 q t) := by
  have e : (V m c main_v40 : S128x128.Idx → EReal)
      = truncf (F := Ideal) .bf16 (transpose S128x128 [1, 0] (addf (F := Ideal) (s := S128x128) (φ := .f32) (m ((c : Thread nD τ).loc main_arg8)) (m ((c : Thread nD τ).loc main_arg13))) transposes_S128x128_S128x128_1_0)
          bitsLt_bf16_f32 := by
    dsimp only [V, hostOps0]
    after_results_simp <;> rfl
  rw [e, truncf_apply]
  exact ValueIdx.transpose_ix2_apply _ _ t q

/-- Window 13: the second type's root weights plus the first relation's, transposed. -/
theorem merged_b (c : Dev nD) (t q : Fin 128) :
    (V m c main_v43 : S128x128.Idx → EReal) (ix2 t q)
      = addf (F := Ideal) (s := S128x128) (φ := .f32) (m ((c : Thread nD τ).loc main_arg10)) (m ((c : Thread nD τ).loc main_arg12)) (ix2 q t) := by
  have e : (V m c main_v43 : S128x128.Idx → EReal)
      = truncf (F := Ideal) .bf16 (transpose S128x128 [1, 0] (addf (F := Ideal) (s := S128x128) (φ := .f32) (m ((c : Thread nD τ).loc main_arg10)) (m ((c : Thread nD τ).loc main_arg12))) transposes_S128x128_S128x128_1_0)
          bitsLt_bf16_f32 := by
    dsimp only [V, hostOps0]
    after_results_simp <;> rfl
  rw [e, truncf_apply]
  exact ValueIdx.transpose_ix2_apply _ _ t q

/-- Window 14: the first type's bias as a row. -/
theorem bias_a (c : Dev nD) (q : Fin 128) :
    (V m c main_v44 : S1x128.Idx → EReal) (ix2 (0 : Fin 1) q) = ((m ((c : Thread nD τ).loc main_arg9)) : S128.Idx → EReal) (ix1 q) := by
  have e : (V m c main_v44 : S1x128.Idx → EReal) = shapeCast S1x128 (m ((c : Thread nD τ).loc main_arg9)) shapeCasts_S128_S1x128 := by
    dsimp only [V, hostOps0]
    after_results_simp <;> rfl
  rw [e]
  exact ValueIdx.shapeCast_a_1a_apply _ _ 0 q

/-- Window 15: the second type's bias as a row. -/
theorem bias_b (c : Dev nD) (q : Fin 128) :
    (V m c main_v45 : S1x128.Idx → EReal) (ix2 (0 : Fin 1) q) = ((m ((c : Thread nD τ).loc main_arg11)) : S128.Idx → EReal) (ix1 q) := by
  have e : (V m c main_v45 : S1x128.Idx → EReal) = shapeCast S1x128 (m ((c : Thread nD τ).loc main_arg11)) shapeCasts_S128_S1x128 := by
    dsimp only [V, hostOps0]
    after_results_simp <;> rfl
  rw [e]
  exact ValueIdx.shapeCast_a_1a_apply _ _ 0 q

end Cert.KernelIdeal.HostArrays

end
-- ==== Proof.BlockReads.lean ====
/-
  Each input block of a grid point, entry by entry, in terms of the arguments as launched.

  Point t's block of a node-feature window at (p, k) is the argument at (2000 t + p, k); of a segment-sum window, the
  shared segment sum there; of a count window at (p, 0), the shared edge count of row 2000 t + p. A weight window's
  block at (k, q) is the weight argument at (q, k) — the host transposed it — or, for the two summed windows, the
  entrywise sum of two weight arguments at (q, k); a bias window's block at (0, q) is the bias at q.
-/
import proofs.«182101_j34548716929228_2_alg».proof.Proof.BlockIndex
import proofs.«182101_j34548716929228_2_alg».proof.Proof.HostAggregates
import proofs.«182101_j34548716929228_2_alg».proof.Proof.HostWeights
import proofs.«182101_j34548716929228_2_alg».proof.Proof.HostMerged
import proofs.«182101_j34548716929228_2_alg».proof.Proof.Segment

noncomputable section

namespace Cert.KernelIdeal.BlockReads

open Cert.KernelIdeal Cert.KernelIdeal.Gen Cert.KernelIdeal.BlockIndex Idealize.ShloMosaic Idealize.ShloMosaic.TcCoe
open Idealize.SL.Sem Idealize.ShloMosaic.ValueIdx

variable (m : (ℓ : Loc nD τ sig) → Buf (Elt Ideal) ℓ)

/-- Window 0: a node-feature argument, rows 2000 t onward. -/
theorem read0 (c : Dev nD) (t : Fin cfg0.N) (p : Fin 2000) (k : Fin 128) :
    iblk m c 0 t (ix2 p k) = (m ((c : Thread nD τ).loc main_arg0)) (ix2 (row t p) k) := by
  have hA : V m c (Pipeline.arrRef spec0 0) = m ((c : Thread nD τ).loc main_arg0) := V_main_arg0 m c
  unfold iblk
  generalize V m c (Pipeline.arrRef spec0 0) = A at hA ⊢
  subst hA
  rw [View.read_apply, emb0]
  exact cast_eq _ _

/-- Window 1: a node-feature argument, rows 2000 t onward. -/
theorem read1 (c : Dev nD) (t : Fin cfg0.N) (p : Fin 2000) (k : Fin 128) :
    iblk m c 1 t (ix2 p k) = (m ((c : Thread nD τ).loc main_arg1)) (ix2 (row t p) k) := by
  have hA : V m c (Pipeline.arrRef spec0 1) = m ((c : Thread nD τ).loc main_arg1) := V_main_arg1 m c
  unfold iblk
  generalize V m c (Pipeline.arrRef spec0 1) = A at hA ⊢
  subst hA
  rw [View.read_apply, emb1]
  exact cast_eq _ _

/-- Window 2: a node-feature argument, rows 2000 t onward. -/
theorem read2 (c : Dev nD) (t : Fin cfg0.N) (p : Fin 2000) (k : Fin 128) :
    iblk m c 2 t (ix2 p k) = (m ((c : Thread nD τ).loc main_arg2)) (ix2 (row t p) k) := by
  have hA : V m c (Pipeline.arrRef spec0 2) = m ((c : Thread nD τ).loc main_arg2) := V_main_arg2 m c
  unfold iblk
  generalize V m c (Pipeline.arrRef spec0 2) = A at hA ⊢
  subst hA
  rw [View.read_apply, emb2]
  exact cast_eq _ _

/-- Window 3: a node-feature argument, rows 2000 t onward. -/
theorem read3 (c : Dev nD) (t : Fin cfg0.N) (p : Fin 2000) (k : Fin 128) :
    iblk m c 3 t (ix2 p k) = (m ((c : Thread nD τ).loc main_arg3)) (ix2 (row t p) k) := by
  have hA : V m c (Pipeline.arrRef spec0 3) = m ((c : Thread nD τ).loc main_arg3) := V_main_arg3 m c
  unfold iblk
  generalize V m c (Pipeline.arrRef spec0 3) = A at hA ⊢
  subst hA
  rw [View.read_apply, emb3]
  exact cast_eq _ _

/-- Window 4: the first relation's segment sum. -/
theorem read4 (c : Dev nD) (t : Fin cfg0.N) (p : Fin 2000) (k : Fin 128) :
    iblk m c 4 t (ix2 p k) = (Segment.segSum (m ((c : Thread nD τ).loc main_arg0)) (m ((c : Thread nD τ).loc main_arg4)) (m ((c : Thread nD τ).loc main_arg5))) (ix2 (row t p) k) := by
  have hA : V m c (Pipeline.arrRef spec0 4) = (Segment.segSum (m ((c : Thread nD τ).loc main_arg0)) (m ((c : Thread nD τ).loc main_arg4)) (m ((c : Thread nD τ).loc main_arg5))) := HostArrays.sum_ab m c
  unfold iblk
  generalize V m c (Pipeline.arrRef spec0 4) = A at hA ⊢
  rw [View.read_apply, emb4, hA]
  exact cast_eq _ _

/-- Window 5: the second relation's segment sum. -/
theorem read5 (c : Dev nD) (t : Fin cfg0.N) (p : Fin 2000) (k : Fin 128) :
    iblk m c 5 t (ix2 p k) = (Segment.segSum (m ((c : Thread nD τ).loc main_arg1)) (m ((c : Thread nD τ).loc main_arg6)) (m ((c : Thread nD τ).loc main_arg7))) (ix2 (row t p) k) := by
  have hA : V m c (Pipeline.arrRef spec0 5) = (Segment.segSum (m ((c : Thread nD τ).loc main_arg1)) (m ((c : Thread nD τ).loc main_arg6)) (m ((c : Thread nD τ).loc main_arg7))) := HostArrays.sum_ba m c
  unfold iblk
  generalize V m c (Pipeline.arrRef spec0 5) = A at hA ⊢
  rw [View.read_apply, emb5, hA]
  exact cast_eq _ _

/-- Window 6: the first relation's edge count of row 2000 t + p. -/
theorem read6 (c : Dev nD) (t : Fin cfg0.N) (p : Fin 2000) :
    iblk m c 6 t (ix2 p (0 : Fin 1)) = Segment.segCount (m ((c : Thread nD τ).loc main_arg5)) (ix1 (row t p)) := by
  have h := HostArrays.count_ab m c (row t p)
  have hA : V m c main_v14 = V m c (Pipeline.arrRef spec0 6) := rfl
  rw [hA] at h
  unfold iblk
  generalize V m c (Pipeline.arrRef spec0 6) = A at h ⊢
  rw [View.read_apply, emb6]
  exact (cast_eq _ _).trans h

/-- Window 7: the second relation's edge count of row 2000 t + p. -/
theorem read7 (c : Dev nD) (t : Fin cfg0.N) (p : Fin 2000) :
    iblk m c 7 t (ix2 p (0 : Fin 1)) = Segment.segCount (m ((c : Thread nD τ).loc main_arg7)) (ix1 (row t p)) := by
  have h := HostArrays.count_ba m c (row t p)
  have hA : V m c main_v29 = V m c (Pipeline.arrRef spec0 7) := rfl
  rw [hA] at h
  unfold iblk
  generalize V m c (Pipeline.arrRef spec0 7) = A at h ⊢
  rw [View.read_apply, emb7]
  exact (cast_eq _ _).trans h

/-- Window 8: the first type's root weights, transposed. -/
theorem read8 (c : Dev nD) (t : Fin cfg0.N) (k q : Fin 128) :
    iblk m c 8 t (ix2 k q) = (m ((c : Thread nD τ).loc main_arg8)) (ix2 q k) := by
  have h := HostArrays.root_a m c k q
  have hA : V m c main_v31 = V m c (Pipeline.arrRef spec0 8) := rfl
  rw [hA] at h
  unfold iblk
  generalize V m c (Pipeline.arrRef spec0 8) = A at h ⊢
  rw [View.read_apply, emb8]
  exact (cast_eq _ _).trans h

/-- Window 9: the second type's root weights, transposed. -/
theorem read9 (c : Dev nD) (t : Fin cfg0.N) (k q : Fin 128) :
    iblk m c 9 t (ix2 k q) = (m ((c : Thread nD τ).loc main_arg10)) (ix2 q k) := by
  have h := HostArrays.root_b m c k q
  have hA : V m c main_v33 = V m c (Pipeline.arrRef spec0 9) := rfl
  rw [hA] at h
  unfold iblk
  generalize V m c (Pipeline.arrRef spec0 9) = A at h ⊢
  rw [View.read_apply, emb9]
  exact (cast_eq _ _).trans h

/-- Window 10: the second relation's weights, transposed. -/
theorem read10 (c : Dev nD) (t : Fin cfg0.N) (k q : Fin 128) :
    iblk m c 10 t (ix2 k q) = (m ((c : Thread nD τ).loc main_arg13)) (ix2 q k) := by
  have h := HostArrays.rel_ba m c k q
  have hA : V m c main_v37 = V m c (Pipeline.arrRef spec0 10) := rfl
  rw [hA] at h
  unfold iblk
  generalize V m c (Pipeline.arrRef spec0 10) = A at h ⊢
  rw [View.read_apply, emb10]
  exact (cast_eq _ _).trans h

/-- Window 11: the first relation's weights, transposed. -/
theorem read11 (c : Dev nD) (t : Fin cfg0.N) (k q : Fin 128) :
    iblk m c 11 t (ix2 k q) = (m ((c : Thread nD τ).loc main_arg12)) (ix2 q k) := by
  have h := HostArrays.rel_ab m c k q
  have hA : V m c main_v35 = V m c (Pipeline.arrRef spec0 11) := rfl
  rw [hA] at h
  unfold iblk
  generalize V m c (Pipeline.arrRef spec0 11) = A at h ⊢
  rw [View.read_apply, emb11]
  exact (cast_eq _ _).trans h

/-- Window 12: the first type's root weights plus the second relation's, transposed. -/
theorem read12 (c : Dev nD) (t : Fin cfg0.N) (k q : Fin 128) :
    iblk m c 12 t (ix2 k q) = addf (F := Ideal) (s := S128x128) (φ := .f32) (m ((c : Thread nD τ).loc main_arg8)) (m ((c : Thread nD τ).loc main_arg13)) (ix2 q k) := by
  have h := HostArrays.merged_a m c k q
  have hA : V m c main_v40 = V m c (Pipeline.arrRef spec0 12) := rfl
  rw [hA] at h
  unfold iblk
  generalize V m c (Pipeline.arrRef spec0 12) = A at h ⊢
  rw [View.read_apply, emb12]
  exact (cast_eq _ _).trans h

/-- Window 13: the second type's root weights plus the first relation's, transposed. -/
theorem read13 (c : Dev nD) (t : Fin cfg0.N) (k q : Fin 128) :
    iblk m c 13 t (ix2 k q) = addf (F := Ideal) (s := S128x128) (φ := .f32) (m ((c : Thread nD τ).loc main_arg10)) (m ((c : Thread nD τ).loc main_arg12)) (ix2 q k) := by
  have h := HostArrays.merged_b m c k q
  have hA : V m c main_v43 = V m c (Pipeline.arrRef spec0 13) := rfl
  rw [hA] at h
  unfold iblk
  generalize V m c (Pipeline.arrRef spec0 13) = A at h ⊢
  rw [View.read_apply, emb13]
  exact (cast_eq _ _).trans h

/-- Window 14: the first type's bias. -/
theorem read14 (c : Dev nD) (t : Fin cfg0.N) (q : Fin 128) :
    iblk m c 14 t (ix2 (0 : Fin 1) q) = (m ((c : Thread nD τ).loc main_arg9)) (ix1 q) := by
  have h := HostArrays.bias_a m c q
  have hA : V m c main_v44 = V m c (Pipeline.arrRef spec0 14) := rfl
  rw [hA] at h
  unfold iblk
  generalize V m c (Pipeline.arrRef spec0 14) = A at h ⊢
  rw [View.read_apply, emb14]
  exact (cast_eq _ _).trans h

/-- Window 15: the second type's bias. -/
theorem read15 (c : Dev nD) (t : Fin cfg0.N) (q : Fin 128) :
    iblk m c 15 t (ix2 (0 : Fin 1) q) = (m ((c : Thread nD τ).loc main_arg11)) (ix1 q) := by
  have h := HostArrays.bias_b m c q
  have hA : V m c main_v45 = V m c (Pipeline.arrRef spec0 15) := rfl
  rw [hA] at h
  unfold iblk
  generalize V m c (Pipeline.arrRef spec0 15) = A at h ⊢
  rw [View.read_apply, emb15]
  exact (cast_eq _ _).trans h

end Cert.KernelIdeal.BlockReads

end
-- ==== Proof.SpecEntries.lean ====
/-
  The layer's entries written out at a row `r` and a channel `q`: each arrangement as the explicit sums it abbreviates.
-/
import proofs.«182101_j34548716929228_2_alg».proof.Proof.Spec

noncomputable section

open scoped BigOperators

namespace Cert.TwinConv

open Idealize.ShloMosaic Idealize.ShloMosaic.ValueIdx

variable {n k d : ℕ}

/-- The bias-last message-passing entry at `(r, q)`, the mean written out. -/
theorem convBiasLast_mean_apply (x : (⟨2, ![n, k]⟩ : Shape).Idx → EReal) (wroot : (⟨2, ![d, k]⟩ : Shape).Idx → EReal)
    (s : (⟨2, ![n, k]⟩ : Shape).Idx → EReal) (cnt : (⟨1, ![n]⟩ : Shape).Idx → EReal) (one : EReal)
    (wrel : (⟨2, ![d, k]⟩ : Shape).Idx → EReal) (b : (⟨1, ![d]⟩ : Shape).Idx → EReal) (r : Fin n) (q : Fin d) :
    convBiasLast x wroot (mean s cnt one) wrel b (ix2 r q)
      = (∑ t : Fin k, x (ix2 r t) * wroot (ix2 q t)
          + ∑ t : Fin k, Ideal.div (s (ix2 r t)) (max (cnt (ix1 r)) one) * wrel (ix2 q t))
        + b (ix1 q) := rfl

/-- The merged twin entry at `(r, q)`. -/
theorem twinMerged_apply (xp : (⟨2, ![n, k]⟩ : Shape).Idx → EReal) (wroot wrel : (⟨2, ![d, k]⟩ : Shape).Idx → EReal)
    (b : (⟨1, ![d]⟩ : Shape).Idx → EReal) (r : Fin n) (q : Fin d) :
    twinMerged xp wroot wrel b (ix2 r q)
      = (∑ t : Fin k, xp (ix2 r t) * (wroot (ix2 q t) + wrel (ix2 q t))) + b (ix1 q) := rfl

end Cert.TwinConv

end
-- ==== Proof.KernelValue.lean ====
/-
  From blocks to arrays: what each of the kernel's four result arrays holds after the run, as ONE function of the
  argument arrays, in the arrangement the kernel computes — the bias added last, and for the twin outputs the features
  multiplied once into the sum of the two weight matrices.

  At a symbolic grid point the body's store into an output block is its block formula of the loaded blocks; each loaded
  block, entry by entry, is an argument as launched or the host operations' term of the arguments, read at the block's
  position. Chained, the store at (p, q) of point t is the whole-array function at (2000 t + p, q); the 25 blocks
  cover each output array, so the array ends holding that function.
-/
import proofs.«182101_j34548716929228_2_alg».proof.Proof.Gen.KernelIdeal.Value
import proofs.«182101_j34548716929228_2_alg».proof.Proof.KernelBlock
import proofs.«182101_j34548716929228_2_alg».proof.Proof.BlockIndex
import proofs.«182101_j34548716929228_2_alg».proof.Proof.BlockReads
import proofs.«182101_j34548716929228_2_alg».proof.Proof.Segment
import proofs.«182101_j34548716929228_2_alg».proof.Proof.Spec
import proofs.«182101_j34548716929228_2_alg».proof.Proof.SpecEntries
import Idealize.ShloMosaic.Lib.ValueIdx
import Idealize.ShloMosaic.Lib.Pipeline.Value

noncomputable section

open scoped BigOperators

namespace Cert.KernelIdeal.Arrays

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The first node type's message-passing output: its own features through its root weights, the mean of the second
    type's features over the arriving second-relation edges through that relation's weights, its bias last. -/
def outA (c : Dev nD) : S50000x128.Idx → EReal :=
  Cert.TwinConv.convBiasLast (n := 50000) (k := 128) (d := 128) (m ((c : Thread nD τ).loc main_arg0)) (m ((c : Thread nD τ).loc main_arg8))
    (Cert.TwinConv.mean (Segment.segSum (m ((c : Thread nD τ).loc main_arg1)) (m ((c : Thread nD τ).loc main_arg6)) (m ((c : Thread nD τ).loc main_arg7))) (Segment.segCount (m ((c : Thread nD τ).loc main_arg7))) (Ideal.ofBits .f32 0x3F800000#32))
    (m ((c : Thread nD τ).loc main_arg13)) (m ((c : Thread nD τ).loc main_arg9))

/-- The second node type's message-passing output. -/
def outB (c : Dev nD) : S50000x128.Idx → EReal :=
  Cert.TwinConv.convBiasLast (n := 50000) (k := 128) (d := 128) (m ((c : Thread nD τ).loc main_arg1)) (m ((c : Thread nD τ).loc main_arg10))
    (Cert.TwinConv.mean (Segment.segSum (m ((c : Thread nD τ).loc main_arg0)) (m ((c : Thread nD τ).loc main_arg4)) (m ((c : Thread nD τ).loc main_arg5))) (Segment.segCount (m ((c : Thread nD τ).loc main_arg5))) (Ideal.ofBits .f32 0x3F800000#32))
    (m ((c : Thread nD τ).loc main_arg12)) (m ((c : Thread nD τ).loc main_arg11))

/-- The first node type's twin output: the twin features against the sum of the root and relation weights. -/
def twinA (c : Dev nD) : S50000x128.Idx → EReal :=
  Cert.TwinConv.twinMerged (n := 50000) (k := 128) (d := 128) (m ((c : Thread nD τ).loc main_arg2)) (m ((c : Thread nD τ).loc main_arg8)) (m ((c : Thread nD τ).loc main_arg13)) (m ((c : Thread nD τ).loc main_arg9))

/-- The second node type's twin output. -/
def twinB (c : Dev nD) : S50000x128.Idx → EReal :=
  Cert.TwinConv.twinMerged (n := 50000) (k := 128) (d := 128) (m ((c : Thread nD τ).loc main_arg3)) (m ((c : Thread nD τ).loc main_arg10)) (m ((c : Thread nD τ).loc main_arg12)) (m ((c : Thread nD τ).loc main_arg11))

/-- The first result: the body's store at `(p, q)` of point `t` is `outA` at `(2000 t + p, q)`. -/
theorem store16 (c : Dev nD) (t : Fin cfg0.N) (p : Fin 2000) (q : Fin 128) :
    k0_pay1 (k0_pay5 (iblk m c 8 t)) (k0_pay7 (iblk m c 10 t)) (k0_pay11 (iblk m c 14 t))
        (k0_pay14 (iblk m c 7 t) (iblk m c 5 t)) (iblk m c 0 t) (ix2 p q)
      = outA m c (ix2 (BlockIndex.row t p) q) := by
  refine (Block.convA_block (iblk m c 8 t) (iblk m c 10 t) (iblk m c 14 t) (iblk m c 7 t)
    (iblk m c 5 t) (iblk m c 0 t) p q).trans ?_
  simp only [BlockReads.read0 m c t, BlockReads.read8 m c t, BlockReads.read5 m c t,
    BlockReads.read7 m c t, BlockReads.read10 m c t, BlockReads.read14 m c t]
  rw [outA, Cert.TwinConv.convBiasLast_mean_apply] <;> rfl

/-- The second result: the body's store at `(p, q)` of point `t` is `outB` at `(2000 t + p, q)`. -/
theorem store17 (c : Dev nD) (t : Fin cfg0.N) (p : Fin 2000) (q : Fin 128) :
    k0_pay2 (k0_pay6 (iblk m c 9 t)) (k0_pay8 (iblk m c 11 t)) (k0_pay12 (iblk m c 15 t))
        (k0_pay13 (iblk m c 6 t) (iblk m c 4 t)) (iblk m c 1 t) (ix2 p q)
      = outB m c (ix2 (BlockIndex.row t p) q) := by
  refine (Block.convB_block (iblk m c 9 t) (iblk m c 11 t) (iblk m c 15 t) (iblk m c 6 t)
    (iblk m c 4 t) (iblk m c 1 t) p q).trans ?_
  simp only [BlockReads.read1 m c t, BlockReads.read9 m c t, BlockReads.read4 m c t,
    BlockReads.read6 m c t, BlockReads.read11 m c t, BlockReads.read15 m c t]
  rw [outB, Cert.TwinConv.convBiasLast_mean_apply] <;> rfl

/-- The third result: the body's store at `(p, q)` of point `t` is `twinA` at `(2000 t + p, q)`. -/
theorem store18 (c : Dev nD) (t : Fin cfg0.N) (p : Fin 2000) (q : Fin 128) :
    k0_pay3 (k0_pay9 (iblk m c 12 t)) (k0_pay11 (iblk m c 14 t)) (iblk m c 2 t) (ix2 p q)
      = twinA m c (ix2 (BlockIndex.row t p) q) := by
  refine (Block.twinA_block (iblk m c 12 t) (iblk m c 14 t) (iblk m c 2 t) p q).trans ?_
  simp only [BlockReads.read2 m c t, BlockReads.read12 m c t, BlockReads.read14 m c t]
  rw [twinA, Cert.TwinConv.twinMerged_apply] <;> rfl

/-- The fourth result: the body's store at `(p, q)` of point `t` is `twinB` at `(2000 t + p, q)`. -/
theorem store19 (c : Dev nD) (t : Fin cfg0.N) (p : Fin 2000) (q : Fin 128) :
    k0_pay4 (k0_pay10 (iblk m c 13 t)) (k0_pay12 (iblk m c 15 t)) (iblk m c 3 t) (ix2 p q)
      = twinB m c (ix2 (BlockIndex.row t p) q) := by
  refine (Block.twinB_block (iblk m c 13 t) (iblk m c 15 t) (iblk m c 3 t) p q).trans ?_
  simp only [BlockReads.read3 m c t, BlockReads.read13 m c t, BlockReads.read15 m c t]
  rw [twinB, Cert.TwinConv.twinMerged_apply] <;> rfl

/-- WHAT POINT `t` WRITES BACK to the first result's array is block `t` of `outA`. -/
theorem flushed16_eq (c : Dev nD) (t : Fin cfg0.N) :
    (dats m 0 c).flushed 16 t = ((cfg0.win 16).blk t).view.read (Elt Ideal) (outA m c) := by
  have hs := store16 m c t
  generalize outA m c = G at hs ⊢
  show (cfg0.win 16).cut (grid0.coords t) ((dats m 0 c).after 16 t) = _
  rw [after0_16]
  unfold out0_16
  rw [View.canon_unit_zero hz]
  simp only [View.ld_unit_zero (S := S2000x128) hz, View.ld_unit_zero (S := S128x128) hz,
    View.ld_unit_zero (S := S1x128) hz, View.ld_unit_zero (S := S2000x1) hz]
  funext j
  have hj0 : (j 0).val < 2000 := (j 0).isLt
  have hj1 : (j 1).val < 128 := (j 1).isLt
  obtain ⟨p, q, rfl⟩ : ∃ (p : Fin 2000) (q : Fin 128), j = ix2 p q :=
    ⟨⟨(j 0).val, hj0⟩, ⟨(j 1).val, hj1⟩, funext fun a => by
      match a with
      | ⟨0, _⟩ => rfl
      | ⟨1, _⟩ => rfl⟩
  show k0_pay1 (k0_pay5 (iblk m c 8 t)) (k0_pay7 (iblk m c 10 t)) (k0_pay11 (iblk m c 14 t))
      (k0_pay14 (iblk m c 7 t) (iblk m c 5 t)) (iblk m c 0 t) (ix2 p q)
    = _
  rw [View.read_apply, BlockIndex.emb16]
  exact (hs p q).trans (cast_eq _ _).symm

/-- WHAT POINT `t` WRITES BACK to the second result's array is block `t` of `outB`. -/
theorem flushed17_eq (c : Dev nD) (t : Fin cfg0.N) :
    (dats m 0 c).flushed 17 t = ((cfg0.win 17).blk t).view.read (Elt Ideal) (outB m c) := by
  have hs := store17 m c t
  generalize outB m c = G at hs ⊢
  show (cfg0.win 17).cut (grid0.coords t) ((dats m 0 c).after 17 t) = _
  rw [after0_17]
  unfold out0_17
  rw [View.canon_unit_zero hz]
  simp only [View.ld_unit_zero (S := S2000x128) hz, View.ld_unit_zero (S := S128x128) hz,
    View.ld_unit_zero (S := S1x128) hz, View.ld_unit_zero (S := S2000x1) hz]
  funext j
  have hj0 : (j 0).val < 2000 := (j 0).isLt
  have hj1 : (j 1).val < 128 := (j 1).isLt
  obtain ⟨p, q, rfl⟩ : ∃ (p : Fin 2000) (q : Fin 128), j = ix2 p q :=
    ⟨⟨(j 0).val, hj0⟩, ⟨(j 1).val, hj1⟩, funext fun a => by
      match a with
      | ⟨0, _⟩ => rfl
      | ⟨1, _⟩ => rfl⟩
  show k0_pay2 (k0_pay6 (iblk m c 9 t)) (k0_pay8 (iblk m c 11 t)) (k0_pay12 (iblk m c 15 t))
      (k0_pay13 (iblk m c 6 t) (iblk m c 4 t)) (iblk m c 1 t) (ix2 p q)
    = _
  rw [View.read_apply, BlockIndex.emb17]
  exact (hs p q).trans (cast_eq _ _).symm

/-- WHAT POINT `t` WRITES BACK to the third result's array is block `t` of `twinA`. -/
theorem flushed18_eq (c : Dev nD) (t : Fin cfg0.N) :
    (dats m 0 c).flushed 18 t = ((cfg0.win 18).blk t).view.read (Elt Ideal) (twinA m c) := by
  have hs := store18 m c t
  generalize twinA m c = G at hs ⊢
  show (cfg0.win 18).cut (grid0.coords t) ((dats m 0 c).after 18 t) = _
  rw [after0_18]
  unfold out0_18
  rw [View.canon_unit_zero hz]
  simp only [View.ld_unit_zero (S := S2000x128) hz, View.ld_unit_zero (S := S128x128) hz,
    View.ld_unit_zero (S := S1x128) hz]
  funext j
  have hj0 : (j 0).val < 2000 := (j 0).isLt
  have hj1 : (j 1).val < 128 := (j 1).isLt
  obtain ⟨p, q, rfl⟩ : ∃ (p : Fin 2000) (q : Fin 128), j = ix2 p q :=
    ⟨⟨(j 0).val, hj0⟩, ⟨(j 1).val, hj1⟩, funext fun a => by
      match a with
      | ⟨0, _⟩ => rfl
      | ⟨1, _⟩ => rfl⟩
  show k0_pay3 (k0_pay9 (iblk m c 12 t)) (k0_pay11 (iblk m c 14 t)) (iblk m c 2 t) (ix2 p q)
    = _
  rw [View.read_apply, BlockIndex.emb18]
  exact (hs p q).trans (cast_eq _ _).symm

/-- WHAT POINT `t` WRITES BACK to the fourth result's array is block `t` of `twinB`. -/
theorem flushed19_eq (c : Dev nD) (t : Fin cfg0.N) :
    (dats m 0 c).flushed 19 t = ((cfg0.win 19).blk t).view.read (Elt Ideal) (twinB m c) := by
  have hs := store19 m c t
  generalize twinB m c = G at hs ⊢
  show (cfg0.win 19).cut (grid0.coords t) ((dats m 0 c).after 19 t) = _
  rw [after0_19]
  unfold out0_19
  rw [View.canon_unit_zero hz]
  simp only [View.ld_unit_zero (S := S2000x128) hz, View.ld_unit_zero (S := S128x128) hz,
    View.ld_unit_zero (S := S1x128) hz]
  funext j
  have hj0 : (j 0).val < 2000 := (j 0).isLt
  have hj1 : (j 1).val < 128 := (j 1).isLt
  obtain ⟨p, q, rfl⟩ : ∃ (p : Fin 2000) (q : Fin 128), j = ix2 p q :=
    ⟨⟨(j 0).val, hj0⟩, ⟨(j 1).val, hj1⟩, funext fun a => by
      match a with
      | ⟨0, _⟩ => rfl
      | ⟨1, _⟩ => rfl⟩
  show k0_pay4 (k0_pay10 (iblk m c 13 t)) (k0_pay12 (iblk m c 15 t)) (iblk m c 3 t) (ix2 p q)
    = _
  rw [View.read_apply, BlockIndex.emb19]
  exact (hs p q).trans (cast_eq _ _).symm

/-- The 25 blocks cover the array, so after the run it holds `outA`. -/
theorem final16 (c : Dev nD) : (dats m 0 c).arrAt 16 cfg0.N = outA m c :=
  (dats m 0 c).arrAt_eq_of_cover 16 (outA m c) (fun t _ => flushed16_eq m c t) BlockIndex.cover16

/-- The 25 blocks cover the array, so after the run it holds `outB`. -/
theorem final17 (c : Dev nD) : (dats m 0 c).arrAt 17 cfg0.N = outB m c :=
  (dats m 0 c).arrAt_eq_of_cover 17 (outB m c) (fun t _ => flushed17_eq m c t) BlockIndex.cover17

/-- The 25 blocks cover the array, so after the run it holds `twinA`. -/
theorem final18 (c : Dev nD) : (dats m 0 c).arrAt 18 cfg0.N = twinA m c :=
  (dats m 0 c).arrAt_eq_of_cover 18 (twinA m c) (fun t _ => flushed18_eq m c t) BlockIndex.cover18

/-- The 25 blocks cover the array, so after the run it holds `twinB`. -/
theorem final19 (c : Dev nD) : (dats m 0 c).arrAt 19 cfg0.N = twinB m c :=
  (dats m 0 c).arrAt_eq_of_cover 19 (twinB m c) (fun t _ => flushed19_eq m c t) BlockIndex.cover19

/-- The kernel's run, read: each result array at its whole-array function of the arguments, the arguments unchanged. -/
theorem run : θ_run defs (onTc (τ := τ) (main (F := Ideal))) ⟨m, fun _ => 0, ρ⟩ fun r => ∀ c : Dev nD,
      r.2.mem ((c : Thread nD τ).loc main_v46_0) = outA m c
      ∧ r.2.mem ((c : Thread nD τ).loc main_v46_1) = outB m c
      ∧ r.2.mem ((c : Thread nD τ).loc main_v46_2) = twinA m c
      ∧ r.2.mem ((c : Thread nD τ).loc main_v46_3) = twinB m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final16 m c), (h c).2.1.trans (final17 m c),
      (h c).2.2.1.trans (final18 m c), (h c).2.2.2.1.trans (final19 m c), (h c).2.2.2.2⟩)
    (Cert.KernelIdeal.Value.run_blocks m ρ)

end Cert.KernelIdeal.Arrays

end
-- ==== Proof.RefRead.lean ====
/-
  The reference, read index by index: each of its four results is the layer's entry in the arrangement that adds the bias
  to the self term first and keeps two products.

  A host product of a [50000, 128] matrix with a transposed [128, 128] weight matrix is, at (r, q), the sum over the
  channel t of the matrix at (r, t) times the weights at (q, t); a bias [128] spread over the rows reads, at (r, q), the
  bias at q; the clamped count [50000] spread along the channels reads, at (r, t), the count at r. The message-passing
  entry is proved once for ANY segment-sum array and ANY count array: the two programs' aggregates enter only as those
  two arrays, never opened.
-/
import proofs.«182101_j34548716929228_2_alg».proof.Proof.Gen.ReferenceIdeal.Read
import proofs.«182101_j34548716929228_2_alg».proof.Proof.Spec
import proofs.«182101_j34548716929228_2_alg».proof.Proof.Segment
import proofs.«182101_j34548716929228_2_alg».proof.Proof.LibColumnBroadcast
import Idealize.ShloMosaic.Lib.ValueIdx

noncomputable section

open scoped BigOperators

namespace Cert.ReferenceIdeal.Entries

open Cert.ReferenceIdeal Cert.ReferenceIdeal.Facts₀ Cert.ReferenceIdeal.Read Idealize.ShloMosaic
open Idealize.ShloMosaic.ValueIdx

/-- The reference's segment sum of `x` along a relation is the shared aggregate: the same operations of the same
    arguments. -/
theorem segSum_ab (x0 : (⟨S50000x128, .f32⟩ : BufTy).Contents (Elt Ideal)) (x4 x5 : (⟨S600000, .i32⟩ : BufTy).Contents (Elt Ideal)) :
    val_main_v29 (F := Ideal) x0 x4 x5 = Cert.KernelIdeal.Segment.segSum x0 x4 x5 := rfl

theorem segSum_ba (x1 : (⟨S50000x128, .f32⟩ : BufTy).Contents (Elt Ideal)) (x6 x7 : (⟨S600000, .i32⟩ : BufTy).Contents (Elt Ideal)) :
    val_main_v54 (F := Ideal) x1 x6 x7 = Cert.KernelIdeal.Segment.segSum x1 x6 x7 := rfl

/-- The reference's edge count along a relation is the shared aggregate. -/
theorem segCount_ab (x5 : (⟨S600000, .i32⟩ : BufTy).Contents (Elt Ideal)) :
    val_main_v33 (F := Ideal) x5 = Cert.KernelIdeal.Segment.segCount x5 := rfl

theorem segCount_ba (x7 : (⟨S600000, .i32⟩ : BufTy).Contents (Elt Ideal)) :
    val_main_v58 (F := Ideal) x7 = Cert.KernelIdeal.Segment.segCount x7 := rfl

/-- The host's quotient of two arrays, at an index. -/
theorem quotient_apply {s : Shape} (a b : FVec Ideal s .f32) (i : s.Idx) :
    Host.divf (F := Ideal) a b i = Ideal.div (a i) (b i) := rfl

/-- A [50000] array made a column and spread along the 128 channels reads, at `(r, t)`, the array at `r`. -/
theorem spread_apply (v : FVec Ideal S50000 .f32) (r : Fin 50000) (t : Fin 128) :
    broadcastInDim S50000x128 ![0, 1] bcast_S50000x1_S50000x128_0_1
        (broadcastInDim S50000x1 ![0] bcast_S50000_S50000x1_0 v) (ix2 r t) = v (ix1 r) :=
  Cert.LibColumnBroadcast.column_apply v _ _ r t

/-- THE MESSAGE-PASSING ENTRY for any segment-sum array `S` and any count array `C`: the self product plus the bias,
    plus the product of `S` divided by the clamped, spread count with the relation weights. -/
theorem conv_of (x : (⟨S50000x128, .f32⟩ : BufTy).Contents (Elt Ideal)) (wroot : (⟨S128x128, .f32⟩ : BufTy).Contents (Elt Ideal)) (b : (⟨S128, .f32⟩ : BufTy).Contents (Elt Ideal))
    (wrel : (⟨S128x128, .f32⟩ : BufTy).Contents (Elt Ideal)) (S : (⟨S50000x128, .f32⟩ : BufTy).Contents (Elt Ideal)) (C : (⟨S50000, .f32⟩ : BufTy).Contents (Elt Ideal)) :
    addf (F := Ideal) (s := S50000x128) (φ := .f32) (val_main_v4 (F := Ideal) x wroot b)
        (val_main_v68 (F := Ideal)
          (Host.divf (F := Ideal) (s := S50000x128) (φ := .f32) S (broadcastInDim S50000x128 ![0, 1] bcast_S50000x1_S50000x128_0_1
            (broadcastInDim S50000x1 ![0] bcast_S50000_S50000x1_0 (maximumf (F := Ideal) (s := S50000) (φ := .f32) C (val_main_v59 (F := Ideal)))))) wrel)
      = Cert.TwinConv.convBiasFirst x wroot (Cert.TwinConv.mean S C (Ideal.ofBits .f32 0x3F800000#32)) wrel b := by
  funext i
  obtain ⟨r, q, rfl⟩ : ∃ (r : Fin 50000) (q : Fin 128), i = ix2 r q := ⟨i 0, i 1, eq_ix2 i⟩
  have l1 : ∀ k : Fin 128, lidx_main_v1 (ix2 r q) k = ix2 r k := fun k => funext fun a => Fin.ext (by
    match a with
    | ⟨0, _⟩ => rfl
    | ⟨1, _⟩ => rfl)
  have r1 : ∀ k : Fin 128, idx_main_v0 (ridx_main_v1 (ix2 r q) k) = ix2 q k := fun k => funext fun a => Fin.ext (by
    match a with
    | ⟨0, _⟩ => rfl
    | ⟨1, _⟩ => rfl)
  have b1 : idx_main_v2 (idx_main_v3 (ix2 r q)) = ix1 q := funext fun a => Fin.ext (by
    match a with
    | ⟨0, _⟩ => rfl)
  have l2 : ∀ k : Fin 128, lidx_main_v68 (ix2 r q) k = ix2 r k := fun k => funext fun a => Fin.ext (by
    match a with
    | ⟨0, _⟩ => rfl
    | ⟨1, _⟩ => rfl)
  have r2 : ∀ k : Fin 128, idx_main_v67 (ridx_main_v68 (ix2 r q) k) = ix2 q k := fun k => funext fun a => Fin.ext (by
    match a with
    | ⟨0, _⟩ => rfl
    | ⟨1, _⟩ => rfl)
  have hq : ∀ t : Fin 128, (Host.divf (F := Ideal) (s := S50000x128) (φ := .f32) S (broadcastInDim S50000x128 ![0, 1] bcast_S50000x1_S50000x128_0_1
            (broadcastInDim S50000x1 ![0] bcast_S50000_S50000x1_0 (maximumf (F := Ideal) (s := S50000) (φ := .f32) C (val_main_v59 (F := Ideal)))))) (ix2 r t)
      = Ideal.div (S (ix2 r t)) (max (C (ix1 r)) (Ideal.ofBits .f32 0x3F800000#32)) := fun t => by
    rw [quotient_apply, spread_apply, ValueIdx.maximumf_apply, val_main_v59_apply, val_main_cst_9_apply]
    rfl
  rw [ValueIdx.addf_apply, val_main_v4_apply, val_main_v1_apply, val_main_v3_apply, val_main_v2_apply, val_main_v68_apply]
  simp only [val_main_v0_apply, val_main_v67_apply, l1, r1, b1, l2, r2, hq, Ideal.addf_def]
  rfl

/-- The first result: the first node type's message-passing output. -/
theorem out_a (x0 x1 : (⟨S50000x128, .f32⟩ : BufTy).Contents (Elt Ideal)) (x6 x7 : (⟨S600000, .i32⟩ : BufTy).Contents (Elt Ideal)) (x8 : (⟨S128x128, .f32⟩ : BufTy).Contents (Elt Ideal)) (x9 : (⟨S128, .f32⟩ : BufTy).Contents (Elt Ideal)) (x13 : (⟨S128x128, .f32⟩ : BufTy).Contents (Elt Ideal)) :
    val_main_v66 (F := Ideal) x0 x1 x6 x7 x8 x9 x13
      = Cert.TwinConv.convBiasFirst x0 x8
          (Cert.TwinConv.mean (val_main_v54 (F := Ideal) x1 x6 x7) (val_main_v58 (F := Ideal) x7)
            (Ideal.ofBits .f32 0x3F800000#32)) x13 x9 :=
  conv_of x0 x8 x9 x13 (val_main_v54 (F := Ideal) x1 x6 x7) (val_main_v58 (F := Ideal) x7)

/-- The second result: the second node type's message-passing output. -/
theorem out_b (x0 x1 : (⟨S50000x128, .f32⟩ : BufTy).Contents (Elt Ideal)) (x4 x5 : (⟨S600000, .i32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) :
    val_main_v41 (F := Ideal) x0 x1 x4 x5 x10 x11 x12
      = Cert.TwinConv.convBiasFirst x1 x10
          (Cert.TwinConv.mean (val_main_v29 (F := Ideal) x0 x4 x5) (val_main_v33 (F := Ideal) x5)
            (Ideal.ofBits .f32 0x3F800000#32)) x12 x11 :=
  conv_of x1 x10 x11 x12 (val_main_v29 (F := Ideal) x0 x4 x5) (val_main_v33 (F := Ideal) x5)

/-- The third result: the first node type's twin output. -/
theorem outp_a (x2 : (⟨S50000x128, .f32⟩ : BufTy).Contents (Elt Ideal)) (x8 : (⟨S128x128, .f32⟩ : BufTy).Contents (Elt Ideal)) (x9 : (⟨S128, .f32⟩ : BufTy).Contents (Elt Ideal)) (x13 : (⟨S128x128, .f32⟩ : BufTy).Contents (Elt Ideal)) :
    val_main_v69 (F := Ideal) x2 x8 x9 x13 = Cert.TwinConv.twinSplit x2 x8 x13 x9 := by
  funext i
  obtain ⟨r, q, rfl⟩ : ∃ (r : Fin 50000) (q : Fin 128), i = ix2 r q := ⟨i 0, i 1, eq_ix2 i⟩
  have l1 : ∀ k : Fin 128, lidx_main_v11 (ix2 r q) k = ix2 r k := fun k => funext fun a => Fin.ext (by
    match a with
    | ⟨0, _⟩ => rfl
    | ⟨1, _⟩ => rfl)
  have r1 : ∀ k : Fin 128, idx_main_v10 (ridx_main_v11 (ix2 r q) k) = ix2 q k := fun k => funext fun a => Fin.ext (by
    match a with
    | ⟨0, _⟩ => rfl
    | ⟨1, _⟩ => rfl)
  have b1 : idx_main_v12 (idx_main_v13 (ix2 r q)) = ix1 q := funext fun a => Fin.ext (by
    match a with
    | ⟨0, _⟩ => rfl)
  have l2 : ∀ k : Fin 128, lidx_main_v68 (ix2 r q) k = ix2 r k := fun k => funext fun a => Fin.ext (by
    match a with
    | ⟨0, _⟩ => rfl
    | ⟨1, _⟩ => rfl)
  have r2 : ∀ k : Fin 128, idx_main_v67 (ridx_main_v68 (ix2 r q) k) = ix2 q k := fun k => funext fun a => Fin.ext (by
    match a with
    | ⟨0, _⟩ => rfl
    | ⟨1, _⟩ => rfl)
  rw [val_main_v69_apply, val_main_v14_apply, val_main_v11_apply, val_main_v13_apply, val_main_v12_apply,
    val_main_v68_apply]
  simp only [val_main_v10_apply, val_main_v67_apply, l1, r1, b1, l2, r2, Ideal.addf_def]
  rfl

/-- The fourth result: the second node type's twin output. -/
theorem outp_b (x3 : (⟨S50000x128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) :
    val_main_v44 (F := Ideal) x3 x10 x11 x12 = Cert.TwinConv.twinSplit x3 x10 x12 x11 := by
  funext i
  obtain ⟨r, q, rfl⟩ : ∃ (r : Fin 50000) (q : Fin 128), i = ix2 r q := ⟨i 0, i 1, eq_ix2 i⟩
  have l1 : ∀ k : Fin 128, lidx_main_v16 (ix2 r q) k = ix2 r k := fun k => funext fun a => Fin.ext (by
    match a with
    | ⟨0, _⟩ => rfl
    | ⟨1, _⟩ => rfl)
  have r1 : ∀ k : Fin 128, idx_main_v15 (ridx_main_v16 (ix2 r q) k) = ix2 q k := fun k => funext fun a => Fin.ext (by
    match a with
    | ⟨0, _⟩ => rfl
    | ⟨1, _⟩ => rfl)
  have b1 : idx_main_v17 (idx_main_v18 (ix2 r q)) = ix1 q := funext fun a => Fin.ext (by
    match a with
    | ⟨0, _⟩ => rfl)
  have l2 : ∀ k : Fin 128, lidx_main_v43 (ix2 r q) k = ix2 r k := fun k => funext fun a => Fin.ext (by
    match a with
    | ⟨0, _⟩ => rfl
    | ⟨1, _⟩ => rfl)
  have r2 : ∀ k : Fin 128, idx_main_v42 (ridx_main_v43 (ix2 r q) k) = ix2 q k := fun k => funext fun a => Fin.ext (by
    match a with
    | ⟨0, _⟩ => rfl
    | ⟨1, _⟩ => rfl)
  rw [val_main_v44_apply, val_main_v19_apply, val_main_v16_apply, val_main_v18_apply, val_main_v17_apply,
    val_main_v43_apply]
  simp only [val_main_v15_apply, val_main_v42_apply, l1, r1, b1, l2, r2, Ideal.addf_def]
  rfl

end Cert.ReferenceIdeal.Entries

end
-- ==== Proof.lean ====
/-
  A two-type relational graph convolution with a twin branch: the tiled kernel against its plain reference, as functions
  of the argument arrays on the extended reals.

  Two node types a and b, 50000 nodes each with 128 channels, and two relations of 600000 edges. For each node type the
  layer returns a message-passing output — the node's features through its root weights, plus the MEAN of the other
  type's features over the arriving edges through the relation's weights, plus a bias — and a twin output that pushes a
  second feature matrix through the same root and relation weights with no aggregation.

  Both programs compute the segment sums and the edge counts by the same host operations of the same arguments (a
  gather of the source rows, a scatter-add into the destination rows, a scatter-add of ones); they enter the proof as two
  shared, unopened aggregates. What differs is the arrangement of the dense part:

    * the kernel works on blocks of 2000 rows, divides the segment sum by the clamped count inside the block, and adds the
      bias LAST; the reference adds the bias to the self term first. Three extended reals added in another order: equal
      for any values.
    * for a twin output the kernel multiplies the features once into the SUM of the root and relation weight matrices
      (summed on the host before the call); the reference forms the two products and adds them. This is
      x * (a + b) = x * a + x * b, which fails on the extended reals at infinities; the precondition makes the twin
      features and the four weight matrices real, and for reals it holds.

  The frames of the two kernel programs are the generated frame certificates; the reference's frame is its generated run
  with the results dropped; the idealization rewrote no operation, so nothing is owed for it. The kernel's four result
  arrays as whole-array functions are `Cert.KernelIdeal.Arrays.run`, the reference's four results index by index are
  `Cert.ReferenceIdeal.Entries`, and the two laws are `Cert.TwinConv.convBiasLast_eq_convBiasFirst` and
  `Cert.TwinConv.twinMerged_eq_twinSplit`.
-/
import proofs.«182101_j34548716929228_2_alg».proof.Defs
import proofs.«182101_j34548716929228_2_alg».proof.Proof.Gen.Kernel
import proofs.«182101_j34548716929228_2_alg».proof.Proof.Gen.Kernel.Skeleton
import proofs.«182101_j34548716929228_2_alg».proof.Proof.Gen.Kernel.Launch
import proofs.«182101_j34548716929228_2_alg».proof.Proof.Gen.Kernel.Points
import proofs.«182101_j34548716929228_2_alg».proof.Proof.Gen.Kernel.Frame
import proofs.«182101_j34548716929228_2_alg».proof.Proof.Gen.KernelIdeal
import proofs.«182101_j34548716929228_2_alg».proof.Proof.Gen.KernelIdeal.Skeleton
import proofs.«182101_j34548716929228_2_alg».proof.Proof.Gen.KernelIdeal.Launch
import proofs.«182101_j34548716929228_2_alg».proof.Proof.Gen.KernelIdeal.Points
import proofs.«182101_j34548716929228_2_alg».proof.Proof.Gen.KernelIdeal.Frame
import proofs.«182101_j34548716929228_2_alg».proof.Proof.Gen.ReferenceIdeal
import proofs.«182101_j34548716929228_2_alg».proof.Proof.Gen.Pre_finite_inputs
import proofs.«182101_j34548716929228_2_alg».proof.Proof.Gen.KernelIdeal.Value
import proofs.«182101_j34548716929228_2_alg».proof.Proof.Gen.ReferenceIdeal.Run
import proofs.«182101_j34548716929228_2_alg».proof.Proof.Gen.ReferenceIdeal.Read
import proofs.«182101_j34548716929228_2_alg».proof.Proof.Spec
import proofs.«182101_j34548716929228_2_alg».proof.Proof.Finite
import proofs.«182101_j34548716929228_2_alg».proof.Proof.KernelValue
import proofs.«182101_j34548716929228_2_alg».proof.Proof.RefRead
import Idealize.ShloMosaic.Adequacy
import Idealize.ShloMosaic.Init

noncomputable section

namespace Cert.Proof

open Idealize.ShloMosaic Idealize.SL.Sem

/-- The kernel as printed runs, faults nowhere and leaves its arguments as launched. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference's run, its four results dropped. -/
theorem frame_reference : Cert.frame_ReferenceIdeal := fun m ρ _ =>
  (θ_run Cert.ReferenceIdeal.defs _ _).mono (fun _ h c => (h c).2.2.2.2)
    (Cert.ReferenceIdeal.Value.run (F := Ideal) m ρ)

/-- From memories that agree on the arguments the two idealized programs end with the same four arrays: the kernel's in
    its arrangement, the reference's in the other, joined by the two laws — the second under the precondition's real
    entries. -/
theorem algebraic : Cert.algebraic_KernelIdeal_ReferenceIdeal := by
  intro m ρ m' ρ' hpre hagree
  refine ⟨fun c => Cert.KernelIdeal.Arrays.outA m c, fun c => Cert.KernelIdeal.Arrays.outB m c,
    fun c => Cert.KernelIdeal.Arrays.twinA m c, fun c => Cert.KernelIdeal.Arrays.twinB m c,
    Cert.KernelIdeal.Arrays.run m ρ, ?_⟩
  refine (θ_run Cert.ReferenceIdeal.defs _ _).mono (fun r h c => ?_)
    (Cert.ReferenceIdeal.Value.run (F := Ideal) m' ρ')
  obtain ⟨a0, a1, a2, a3, a4, a5, a6, a7, a8, a9, a10, a11, a12, a13⟩ := hagree c
  obtain ⟨h2, h3, h8, h10, h12, h13⟩ :=
    Cert.Pre_finite_inputs.Reals.of_pre _ _ _ _ _ _ _ _ _ _ _ _ _ _ (hpre c)
  obtain ⟨r0, r1, r2, r3, rest⟩ := h c
  refine ⟨r0.trans ?_, r1.trans ?_, r2.trans ?_, r3.trans ?_, rest⟩
  · rw [Cert.ReferenceIdeal.Read.val_main_v66_eq, Cert.ReferenceIdeal.Entries.out_a,
      Cert.ReferenceIdeal.Entries.segSum_ba, Cert.ReferenceIdeal.Entries.segCount_ba, a0, a1, a6, a7, a8, a9, a13]
    exact (Cert.TwinConv.convBiasLast_eq_convBiasFirst _ _ _ _ _).symm
  · rw [Cert.ReferenceIdeal.Read.val_main_v41_eq, Cert.ReferenceIdeal.Entries.out_b,
      Cert.ReferenceIdeal.Entries.segSum_ab, Cert.ReferenceIdeal.Entries.segCount_ab, a0, a1, a4, a5, a10, a11, a12]
    exact (Cert.TwinConv.convBiasLast_eq_convBiasFirst _ _ _ _ _).symm
  · rw [Cert.ReferenceIdeal.Read.val_main_v69_eq, Cert.ReferenceIdeal.Entries.outp_a, a2, a8, a9, a13]
    exact (Cert.TwinConv.twinMerged_eq_twinSplit _ _ _ _ h2 h8 h13).symm
  · rw [Cert.ReferenceIdeal.Read.val_main_v44_eq, Cert.ReferenceIdeal.Entries.outp_b, a3, a10, a11, a12]
    exact (Cert.TwinConv.twinMerged_eq_twinSplit _ _ _ _ h3 h10 h12).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
